-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000x10000x3 : Shape := ⟨3, ![2000, 10000, 3]⟩
abbrev S_ : Shape := ⟨0, ![]⟩

class Facts : Prop where
  bcast_S_S2000x10000x3 : S_.BroadcastsInDim S2000x10000x3 (![] : Fin 0 → Fin S2000x10000x3.rank)
  reducesTo_S2000x10000x3_S_d0_1_2 : S2000x10000x3.ReducesTo [0, 1, 2] S_
  h_S_ : 0 < S_.numel

variable [Facts]

def fn {F : FTy → Type} [FloatOps F] (main_arg0 : FVec F S2000x10000x3 .f32) (main_arg1 : FVec F S2000x10000x3 .f32) : IVec S_ 1 :=
  let main_v0 : FVec F S2000x10000x3 .f32 := Host.absf main_arg0
  let main_cst : FVec F S_ .f32 := constant S_ .f32 0x7F800000#32
  let main_v1 : FVec F S2000x10000x3 .f32 := broadcastInDim S2000x10000x3 ![] bcast_S_S2000x10000x3 main_cst
  let main_v2 : IVec S2000x10000x3 1 := cmpf .olt main_v0 main_v1
  let main_c : IVec S_ 1 := constantI S_ 1 1#1
  let main_v3 : IVec S_ 1 := (fun x v => Host.reduce IntOp.andi x v reducesTo_S2000x10000x3_S_d0_1_2 h_S_) main_v2 main_c
  let main_v4 : FVec F S2000x10000x3 .f32 := Host.absf main_arg1
  let main_cst_0 : FVec F S_ .f32 := constant S_ .f32 0x7F800000#32
  let main_v5 : FVec F S2000x10000x3 .f32 := broadcastInDim S2000x10000x3 ![] bcast_S_S2000x10000x3 main_cst_0
  let main_v6 : IVec S2000x10000x3 1 := cmpf .olt main_v4 main_v5
  let main_c_1 : IVec S_ 1 := constantI S_ 1 1#1
  let main_v7 : IVec S_ 1 := (fun x v => Host.reduce IntOp.andi x v reducesTo_S2000x10000x3_S_d0_1_2 h_S_) main_v6 main_c_1
  let main_v8 : IVec S_ 1 := andi main_v3 main_v7
  main_v8
-- ==== Kernel.lean ====
abbrev S2000x10000x3 : Shape := ⟨3, ![2000, 10000, 3]⟩
abbrev S2000x30000 : Shape := ⟨2, ![2000, 30000]⟩
abbrev S1x30000 : Shape := ⟨2, ![1, 30000]⟩
abbrev S2000x640 : Shape := ⟨2, ![2000, 640]⟩
abbrev S1x640 : Shape := ⟨2, ![1, 640]⟩
abbrev S640 : Shape := ⟨1, ![640]⟩
abbrev S30000 : Shape := ⟨1, ![30000]⟩
abbrev S10000x3 : Shape := ⟨2, ![10000, 3]⟩
abbrev S_ : Shape := ⟨0, ![]⟩
abbrev S3 : Shape := ⟨1, ![3]⟩

abbrev nBuf : Space → Nat
  | .hbm => 41
  | .vmem => 8
  | .smem => 0
  | _ => 0

abbrev bufTy : (tb : Table) → Fin (tcTables nBuf tb) → BufTy
  | .hbm, ⟨0, _⟩ => ⟨S2000x10000x3, .f32⟩
  | .hbm, ⟨1, _⟩ => ⟨S2000x10000x3, .f32⟩
  | .hbm, ⟨2, _⟩ => ⟨S2000x30000, .f32⟩
  | .hbm, ⟨3, _⟩ => ⟨S2000x30000, .f32⟩
  | .hbm, ⟨4, _⟩ => ⟨S1x30000, .f32⟩
  | .hbm, ⟨5, _⟩ => ⟨S1x30000, .f32⟩
  | .hbm, ⟨6, _⟩ => ⟨S30000, .f32⟩
  | .hbm, ⟨7, _⟩ => ⟨S10000x3, .f32⟩
  | .hbm, ⟨8, _⟩ => ⟨S30000, .f32⟩
  | .hbm, ⟨9, _⟩ => ⟨S10000x3, .f32⟩
  | .hbm, ⟨10, _⟩ => ⟨S_, .f32⟩
  | .hbm, ⟨11, _⟩ => ⟨S10000x3, .f32⟩
  | .hbm, ⟨12, _⟩ => ⟨S10000x3, .f32⟩
  | .hbm, ⟨13, _⟩ => ⟨S10000x3, .f32⟩
  | .hbm, ⟨14, _⟩ => ⟨S_, .f32⟩
  | .hbm, ⟨15, _⟩ => ⟨S10000x3, .f32⟩
  | .hbm, ⟨16, _⟩ => ⟨S10000x3, .i1⟩
  | .hbm, ⟨17, _⟩ => ⟨S_, .f32⟩
  | .hbm, ⟨18, _⟩ => ⟨S_, .f32⟩
  | .hbm, ⟨19, _⟩ => ⟨S10000x3, .f32⟩
  | .hbm, ⟨20, _⟩ => ⟨S10000x3, .f32⟩
  | .hbm, ⟨21, _⟩ => ⟨S_, .f32⟩
  | .hbm, ⟨22, _⟩ => ⟨S3, .f32⟩
  | .hbm, ⟨23, _⟩ => ⟨S10000x3, .f32⟩
  | .hbm, ⟨24, _⟩ => ⟨S_, .f32⟩
  | .hbm, ⟨25, _⟩ => ⟨S3, .f32⟩
  | .hbm, ⟨26, _⟩ => ⟨S_, .f32⟩
  | .hbm, ⟨27, _⟩ => ⟨S3, .f32⟩
  | .hbm, ⟨28, _⟩ => ⟨S3, .i1⟩
  | .hbm, ⟨29, _⟩ => ⟨S_, .f32⟩
  | .hbm, ⟨30, _⟩ => ⟨S3, .f32⟩
  | .hbm, ⟨31, _⟩ => ⟨S3, .f32⟩
  | .hbm, ⟨32, _⟩ => ⟨S3, .f32⟩
  | .hbm, ⟨33, _⟩ => ⟨S_, .f32⟩
  | .hbm, ⟨34, _⟩ => ⟨S_, .f32⟩
  | .hbm, ⟨35, _⟩ => ⟨S3, .f32⟩
  | .hbm, ⟨36, _⟩ => ⟨S3, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S2000x640, .f32⟩
  | .local _ .vmem, ⟨1, _⟩ => ⟨S2000x640, .f32⟩
  | .local _ .vmem, ⟨2, _⟩ => ⟨S2000x640, .f32⟩
  | .local _ .vmem, ⟨3, _⟩ => ⟨S2000x640, .f32⟩
  | .local _ .vmem, ⟨4, _⟩ => ⟨S1x640, .f32⟩
  | .local _ .vmem, ⟨5, _⟩ => ⟨S1x640, .f32⟩
  | .local _ .vmem, ⟨6, _⟩ => ⟨S1x640, .f32⟩
  | .local _ .vmem, ⟨7, _⟩ => ⟨S1x640, .f32⟩
  | _, _ => ⟨S2000x10000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_cst_8 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![47], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2000x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2000x10000x3_S2000x30000 : S2000x10000x3.ShapeCasts S2000x30000
  inb_S2000x640_S2000x640_0_0 : ∀ a, (![0, 0] : Fin 2 → Nat) a + S2000x640.size a ≤ S2000x640.size a
  h_S2000x640 : 0 < S2000x640.numel
  shapeCasts_S2000x640_S2000x640 : S2000x640.ShapeCasts S2000x640
  reduces_S2000x640_S640 : S2000x640.Reduces [0] S640
  shapeCasts_S640_S1x640 : S640.ShapeCasts S1x640
  inb_S1x640_S1x640_0_0 : ∀ a, (![0, 0] : Fin 2 → Nat) a + S1x640.size a ≤ S1x640.size a
  h_S1x640 : 0 < S1x640.numel
  natLt_1_32 : 1 < 32
  shapeCasts_S1x30000_S30000 : S1x30000.ShapeCasts S30000
  shapeCasts_S30000_S10000x3 : S30000.ShapeCasts S10000x3
  bcast_S_S10000x3 : S_.BroadcastsInDim S10000x3 (![] : Fin 0 → Fin S10000x3.rank)
  reducesTo_S10000x3_S3_d0 : S10000x3.ReducesTo [0] S3
  h_S_ : 0 < S_.numel
  bcast_S_S3 : S_.BroadcastsInDim S3 (![] : Fin 0 → Fin S3.rank)
  reducesTo_S3_S_d0 : S3.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2000x640.size a < S2000x30000.size a
  hwx0_0 : ∀ i : grid0.Coords, EltTy.bits .f32 = 32 ∨ (Rect.unit (s := S2000x30000) (fun a => cc0_transform_0 i a * S2000x640.size a) (fun a => (Pipeline.Clip.of (cc0_transform_0 i a) (S2000x640.size a) (S2000x30000.size a)).extent (S2000x640.size a)) fun a => Pipeline.Clip.inb (Pipeline.Clip.ok_of (hstart0_0 i a))).WholeWords (EltTy.packing .f32)
  hwxs0_0 : ∀ i : grid0.Coords, EltTy.bits .f32 = 32 ∨ (Rect.unit (s := S2000x640) (fun _ => 0) (fun a => (Pipeline.Clip.of (cc0_transform_0 i a) (S2000x640.size a) (S2000x30000.size a)).extent (S2000x640.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2000x640.size a < S2000x30000.size a
  hwx0_1 : ∀ i : grid0.Coords, EltTy.bits .f32 = 32 ∨ (Rect.unit (s := S2000x30000) (fun a => cc0_transform_1 i a * S2000x640.size a) (fun a => (Pipeline.Clip.of (cc0_transform_1 i a) (S2000x640.size a) (S2000x30000.size a)).extent (S2000x640.size a)) fun a => Pipeline.Clip.inb (Pipeline.Clip.ok_of (hstart0_1 i a))).WholeWords (EltTy.packing .f32)
  hwxs0_1 : ∀ i : grid0.Coords, EltTy.bits .f32 = 32 ∨ (Rect.unit (s := S2000x640) (fun _ => 0) (fun a => (Pipeline.Clip.of (cc0_transform_1 i a) (S2000x640.size a) (S2000x30000.size a)).extent (S2000x640.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x640.size a < S1x30000.size a
  hwx0_2 : ∀ i : grid0.Coords, EltTy.bits .f32 = 32 ∨ (Rect.unit (s := S1x30000) (fun a => cc0_transform_2 i a * S1x640.size a) (fun a => (Pipeline.Clip.of (cc0_transform_2 i a) (S1x640.size a) (S1x30000.size a)).extent (S1x640.size a)) fun a => Pipeline.Clip.inb (Pipeline.Clip.ok_of (hstart0_2 i a))).WholeWords (EltTy.packing .f32)
  hwxs0_2 : ∀ i : grid0.Coords, EltTy.bits .f32 = 32 ∨ (Rect.unit (s := S1x640) (fun _ => 0) (fun a => (Pipeline.Clip.of (cc0_transform_2 i a) (S1x640.size a) (S1x30000.size a)).extent (S1x640.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x640.size a < S1x30000.size a
  hwx0_3 : ∀ i : grid0.Coords, EltTy.bits .f32 = 32 ∨ (Rect.unit (s := S1x30000) (fun a => cc0_transform_3 i a * S1x640.size a) (fun a => (Pipeline.Clip.of (cc0_transform_3 i a) (S1x640.size a) (S1x30000.size a)).extent (S1x640.size a)) fun a => Pipeline.Clip.inb (Pipeline.Clip.ok_of (hstart0_3 i a))).WholeWords (EltTy.packing .f32)
  hwxs0_3 : ∀ i : grid0.Coords, EltTy.bits .f32 = 32 ∨ (Rect.unit (s := S1x640) (fun _ => 0) (fun a => (Pipeline.Clip.of (cc0_transform_3 i a) (S1x640.size a) (S1x30000.size a)).extent (S1x640.size a)) fun a => (Nat.zero_add _).trans_le (Pipeline.Clip.extent_le (Pipeline.Clip.ok_of (hstart0_3 i a)))).WholeWords (EltTy.packing .f32)

variable [Facts₀]

abbrev win0_0 : Pipeline.Window sig grid0 :=
  Pipeline.Window.ofSpecClip (Memref.whole main_v0) S2000x640.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S2000x640.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v2_0) S1x640.size cc0_transform_2 reads0_2 true false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v2_1) S1x640.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2000x10000x3 : Shape := ⟨3, ![2000, 10000, 3]⟩
abbrev S_ : Shape := ⟨0, ![]⟩
abbrev S10000x3 : Shape := ⟨2, ![10000, 3]⟩
abbrev S3 : Shape := ⟨1, ![3]⟩

abbrev nBuf : Space → Nat
  | .hbm => 57
  | .vmem => 0
  | .smem => 0
  | _ => 0

abbrev bufTy : (tb : Table) → Fin (tcTables nBuf tb) → BufTy
  | .hbm, ⟨0, _⟩ => ⟨S2000x10000x3, .f32⟩
  | .hbm, ⟨1, _⟩ => ⟨S2000x10000x3, .f32⟩
  | .hbm, ⟨2, _⟩ => ⟨S2000x10000x3, .f32⟩
  | .hbm, ⟨3, _⟩ => ⟨S2000x10000x3, .i1⟩
  | .hbm, ⟨4, _⟩ => ⟨S2000x10000x3, .i1⟩
  | .hbm, ⟨5, _⟩ => ⟨S_, .f32⟩
  | .hbm, ⟨6, _⟩ => ⟨S_, .f32⟩
  | .hbm, ⟨7, _⟩ => ⟨S2000x10000x3, .f32⟩
  | .hbm, ⟨8, _⟩ => ⟨S2000x10000x3, .f32⟩
  | .hbm, ⟨9, _⟩ => ⟨S_, .f32⟩
  | .hbm, ⟨10, _⟩ => ⟨S_, .f32⟩
  | .hbm, ⟨11, _⟩ => ⟨S2000x10000x3, .f32⟩
  | .hbm, ⟨12, _⟩ => ⟨S2000x10000x3, .f32⟩
  | .hbm, ⟨13, _⟩ => ⟨S2000x10000x3, .f32⟩
  | .hbm, ⟨14, _⟩ => ⟨S2000x10000x3, .f32⟩
  | .hbm, ⟨15, _⟩ => ⟨S_, .f32⟩
  | .hbm, ⟨16, _⟩ => ⟨S_, .f32⟩
  | .hbm, ⟨17, _⟩ => ⟨S2000x10000x3, .f32⟩
  | .hbm, ⟨18, _⟩ => ⟨S2000x10000x3, .f32⟩
  | .hbm, ⟨19, _⟩ => ⟨S2000x10000x3, .i32⟩
  | .hbm, ⟨20, _⟩ => ⟨S_, .i32⟩
  | .hbm, ⟨21, _⟩ => ⟨S10000x3, .i32⟩
  | .hbm, ⟨22, _⟩ => ⟨S_, .f32⟩
  | .hbm, ⟨23, _⟩ => ⟨S10000x3, .f32⟩
  | .hbm, ⟨24, _⟩ => ⟨S_, .i32⟩
  | .hbm, ⟨25, _⟩ => ⟨S10000x3, .i32⟩
  | .hbm, ⟨26, _⟩ => ⟨S10000x3, .i32⟩
  | .hbm, ⟨27, _⟩ => ⟨S10000x3, .f32⟩
  | .hbm, ⟨28, _⟩ => ⟨S10000x3, .f32⟩
  | .hbm, ⟨29, _⟩ => ⟨S_, .i32⟩
  | .hbm, ⟨30, _⟩ => ⟨S10000x3, .i32⟩
  | .hbm, ⟨31, _⟩ => ⟨S10000x3, .i1⟩
  | .hbm, ⟨32, _⟩ => ⟨S_, .f32⟩
  | .hbm, ⟨33, _⟩ => ⟨S_, .f32⟩
  | .hbm, ⟨34, _⟩ => ⟨S10000x3, .f32⟩
  | .hbm, ⟨35, _⟩ => ⟨S10000x3, .f32⟩
  | .hbm, ⟨36, _⟩ => ⟨S_, .f32⟩
  | .hbm, ⟨37, _⟩ => ⟨S3, .f32⟩
  | .hbm, ⟨38, _⟩ => ⟨S10000x3, .i32⟩
  | .hbm, ⟨39, _⟩ => ⟨S_, .i32⟩
  | .hbm, ⟨40, _⟩ => ⟨S3, .i32⟩
  | .hbm, ⟨41, _⟩ => ⟨S_, .i32⟩
  | .hbm, ⟨42, _⟩ => ⟨S3, .i32⟩
  | .hbm, ⟨43, _⟩ => ⟨S3, .i1⟩
  | .hbm, ⟨44, _⟩ => ⟨S_, .i32⟩
  | .hbm, ⟨45, _⟩ => ⟨S3, .i32⟩
  | .hbm, ⟨46, _⟩ => ⟨S3, .i32⟩
  | .hbm, ⟨47, _⟩ => ⟨S3, .f32⟩
  | .hbm, ⟨48, _⟩ => ⟨S3, .f32⟩
  | .hbm, ⟨49, _⟩ => ⟨S_, .f32⟩
  | .hbm, ⟨50, _⟩ => ⟨S_, .f32⟩
  | .hbm, ⟨51, _⟩ => ⟨S3, .f32⟩
  | .hbm, ⟨52, _⟩ => ⟨S3, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S2000x10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_v3 : Ref sig .tc := ⟨.hbm, 8, rfl⟩
abbrev main_cst_0 : Ref sig .tc := ⟨.hbm, 9, rfl⟩
abbrev main_call1_v0 : Ref sig .tc := ⟨.hbm, 10, rfl⟩
abbrev main_call1_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call2_v0 : Ref sig .tc := ⟨.hbm, 16, rfl⟩
abbrev main_call2_v1 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_c_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_call3_v0 : Ref sig .tc := ⟨.hbm, 33, rfl⟩
abbrev main_call3_v1 : Ref sig .tc := ⟨.hbm, 34, rfl⟩
abbrev main_v17 : Ref sig .tc := ⟨.hbm, 35, rfl⟩
abbrev main_cst_6 : Ref sig .tc := ⟨.hbm, 36, rfl⟩
abbrev main_v18 : Ref sig .tc := ⟨.hbm, 37, rfl⟩
abbrev main_v19 : Ref sig .tc := ⟨.hbm, 38, rfl⟩
abbrev main_c_7 : Ref sig .tc := ⟨.hbm, 39, rfl⟩
abbrev main_v20 : Ref sig .tc := ⟨.hbm, 40, rfl⟩
abbrev main_c_8 : Ref sig .tc := ⟨.hbm, 41, rfl⟩
abbrev main_v21 : Ref sig .tc := ⟨.hbm, 42, rfl⟩
abbrev main_v22 : Ref sig .tc := ⟨.hbm, 43, rfl⟩
abbrev main_c_9 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_10 : Ref sig .tc := ⟨.hbm, 49, rfl⟩
abbrev main_call4_v0 : Ref sig .tc := ⟨.hbm, 50, rfl⟩
abbrev main_call4_v1 : Ref sig .tc := ⟨.hbm, 51, rfl⟩
abbrev main_v27 : Ref sig .tc := ⟨.hbm, 52, rfl⟩
abbrev main_cst_11 : Ref sig .tc := ⟨.hbm, 53, rfl⟩
abbrev main_v28 : Ref sig .tc := ⟨.hbm, 54, rfl⟩
abbrev main_cst_12 : Ref sig .tc := ⟨.hbm, 55, rfl⟩
abbrev main_v29 : Ref sig .tc := ⟨.hbm, 56, rfl⟩

abbrev nD : Nat := 1
abbrev τ : Topo := Topo.v7x

variable {F : FTy → Type} [FloatOps F]

class Facts₀ : Prop where
  bcast_S_S2000x10000x3 : S_.BroadcastsInDim S2000x10000x3 (![] : Fin 0 → Fin S2000x10000x3.rank)
  natLt_1_32 : 1 < 32
  reducesTo_S2000x10000x3_S10000x3_d0 : S2000x10000x3.ReducesTo [0] S10000x3
  h_S_ : 0 < S_.numel
  bcast_S_S10000x3 : S_.BroadcastsInDim S10000x3 (![] : Fin 0 → Fin S10000x3.rank)
  reducesTo_S10000x3_S3_d0 : S10000x3.ReducesTo [0] S3
  bcast_S_S3 : S_.BroadcastsInDim S3 (![] : Fin 0 → Fin S3.rank)
  reducesTo_S3_S_d0 : S3.ReducesTo [0] S_

variable [Facts₀]

class Facts : Prop extends Facts₀ where

variable [Facts]
-- ==== Proof.BitsBody.lean ====
/-
  The kernel body of the masked squared-error reduction, run once on whole staging buffers: it loads the
  two [2000, 640] input tiles, forms their difference, squares it under the not-NaN mask, sums each column over
  the 2000 rows into the first [1, 640] output tile, and sums the mask itself into the second. Stated for any
  float instance: after the body the inputs' buffers hold what they held, and each output's buffer holds the
  one stored tile, a pure function of the two loaded tiles.
-/
import proofs.«113113_j7301444403962_2_alg».proof.Proof.Gen.Kernel.Frame
import proofs.«113113_j7301444403962_2_alg».proof.Proof.Gen.Kernel.Skeleton
import Idealize.ShloMosaic.Lib.Pipeline.FrameBody
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole [2000, 640] input tile, as the rectangle both loads read. -/
abbrev rIn : Rect S2000x640 := Rect.unit (s := S2000x640) ![0, 0] S2000x640.size inb_S2000x640_S2000x640_0_0
/-- The whole [1, 640] output tile, as the rectangle both stores write. -/
abbrev rOut : Rect S1x640 := Rect.unit (s := S1x640) ![0, 0] S1x640.size inb_S1x640_S1x640_0_0

/-- What the first output tile holds after the body: the column sums of the masked squared differences. -/
def outSq (x0 x1 : Vec F S2000x640 .f32) : Vec F S1x640 .f32 :=
  View.canon [⟨rOut, k0_pay3 (View.ld x0 rIn) (View.ld x1 rIn)⟩]
/-- What the second output tile holds after the body: the column sums of the mask. -/
def outCnt (x0 x1 : Vec F S2000x640 .f32) : Vec F S1x640 .f32 :=
  View.canon [⟨rOut, k0_pay4 (View.ld x0 rIn) (View.ld x1 rIn)⟩]

/-- One store of the whole tile covers the tile. -/
theorem cover_out (p0 : Vec F S1x640 .f32) (y : S1x640.Idx) :
    ∃ pc ∈ ([⟨rOut, p0⟩] : List (View.Piece (Elt F) S1x640 .f32)), y ∈ pc.1.set :=
  View.cover_of_tiled [⟨rOut, p0⟩] S1x640.size (by rfl) y

set_option maxHeartbeats 1000000 in
/-- The body on whole staging memrefs: the inputs' at contents `x0`, `x1`, the outputs' at anything; it ends with
    the inputs' as they were and the outputs' at `outSq x0 x1` and `outCnt x0 x1`. -/
theorem sound_kernel (c : Dev nD) (E : Set ℕ) (i : grid0.Coords)
    (arg1 : Memref sig .tc .vmem S2000x640 .f32) (harg1 : arg1.IsWhole)
    (arg2 : Memref sig .tc .vmem S2000x640 .f32) (harg2 : arg2.IsWhole)
    (arg3 : Memref sig .tc .vmem S1x640 .f32) (harg3 : arg3.IsWhole)
    (arg4 : Memref sig .tc .vmem S1x640 .f32) (harg4 : arg4.IsWhole)
    (x0 x1 : Vec F S2000x640 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
              ∗ owns (c : Thread nD τ) arg3 fullShare (outSq x0 x1) ∗ owns (c : Thread nD τ) arg4 fullShare (outCnt x0 x1)) -∗ K ⟨⟩))
      ⊢ wp frame (wpE (defs₀ (F := F)) Variants.none c none) E
          (cc0__reduce_kernel i arg1 harg1 arg2 harg2 arg3 harg3 arg4 harg4) K := by
  simp only [cc0__reduce_kernel_eq_skeleton]; unfold cc0__reduce_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_out _)
  · iexists _; isplitr
    swap; · iexact H3
    ipureintro
    exact View.read_writes_eq_canon _ _ _ (cover_out _)

end Cert.Kernel.Body

end
-- ==== Proof.BitsFrame.lean ====
/-
  The frame of the program read at any float instance: it runs to the end, faults nowhere, and leaves its two
  argument arrays as it found them. The two input windows' last block overhangs the array by 80 columns, so a
  staging buffer holds its block only on the columns inside the array and words nothing names past them; the
  body sums every column, those too, so what it leaves in the outputs' buffers on the overhanging columns is
  not a function of the arrays. Here nothing is claimed of the outputs' buffers at all: the body is handed
  them at any contents and hands them back at any contents, and the inputs' buffers are handed back as found.
-/
import proofs.«113113_j7301444403962_2_alg».proof.Proof.BitsBody
import Idealize.ShloMosaic.Lib.Pipeline.Kit

set_option maxRecDepth 16384

noncomputable section

namespace Cert.Kernel.FrameRun

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The first input's block at point `t` (its columns inside the array), filled out to the whole tile with zeros. -/
def tile0 (c : Dev nD) (t : Fin cfg0.N) : S2000x640.Idx → Elt F .f32 :=
  win0_0.fill (grid0.coords t) (fun _ => Scalar.ofBits .f32 0#32) (iblk m c 0 t)
/-- The second input's likewise. -/
def tile1 (c : Dev nD) (t : Fin cfg0.N) : S2000x640.Idx → Elt F .f32 :=
  win0_1.fill (grid0.coords t) (fun _ => Scalar.ofBits .f32 0#32) (iblk m c 1 t)

/-- The windows whose staging contents are not named: the two outputs. -/
abbrev unread : Fin 4 → Bool := fun | 0 => false | 1 => false | 2 => true | 3 => true | ⟨_ + 4, h⟩ => absurd h (Nat.not_lt.2 (Nat.le_add_left _ _))

/-- The proof data: the arrays as the region finds them; after the body the inputs' buffers at their blocks (on the
    columns inside the array); the outputs' buffers not named (the filler is never read). -/
def dats (_ : Fin 1) (c : Dev nD) : Dat τ (Elt F) Unit ℕ (UR sig nD τ) ℕ cfg0 c where
  A w := V m c (Pipeline.arrRef spec0 w)
  after w t := match w with
    | ⟨0, _⟩ => tile0 m c t
    | ⟨1, _⟩ => tile1 m c t
    | ⟨2, _⟩ => fun _ => Scalar.ofBits .f32 0#32
    | ⟨3, _⟩ => fun _ => Scalar.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = tile0 m c t := by dsimp only [dats]
theorem after_1 (c : Dev nD) (t : Fin cfg0.N) : (dats m 0 c).after 1 t = tile1 m c t := by dsimp only [dats]

/-- Each input's buffer, fetched at every point, holds its block on the columns inside the array and whatever the
    fetch's overwrite left (`d`) past them. -/
theorem before_0 (c : Dev nD) (t : Fin cfg0.N) (d) :
    (dats m 0 c).before 0 t d = win0_0.fill (grid0.coords t) d (iblk m c 0 t) := by
  unfold Dat.before; rw [if_pos (fetch0_0 t)]; rfl
theorem before_1 (c : Dev nD) (t : Fin cfg0.N) (d) :
    (dats m 0 c).before 1 t d = win0_1.fill (grid0.coords t) d (iblk m c 1 t) := by
  unfold Dat.before; rw [if_pos (fetch0_1 t)]; rfl

/-! ## The body obligation -/

/-- What the body is called with at point `t`: the inputs' buffers as fetched, the outputs' at anything, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X)
    ∗ (∃ X, owns (c : Thread nD τ) (st0_3 t) fullShare X))

/-- and what it returns: the inputs' buffers at their blocks on the columns inside the array, the outputs' at anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ X, owns (c : Thread nD τ) (st0_2 t) fullShare X)
    ∗ (∃ X, owns (c : Thread nD τ) (st0_3 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_0, after_1]
  iintro ⟨HΦ, Ho, ⟨%d0, H0⟩, ⟨%d1, H1⟩, ⟨%d2, H2⟩, ⟨%d3, H3⟩⟩
  rw [before_0 m c t d0, before_1 m c t d1]
  iapply (sound_kernel c Set.univ (grid0.coords t) _ _ _ _ _ _ _ _
    (win0_0.fill (grid0.coords t) d0 (iblk m c 0 t)) (win0_1.fill (grid0.coords t) d1 (iblk m c 1 t)) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  have h0 : win0_0.cut (grid0.coords t) (tile0 m c t) = iblk m c 0 t := win0_0.cut_fill _ _ _
  have h1 : win0_1.cut (grid0.coords t) (tile1 m c t) = iblk m c 1 t := win0_1.cut_fill _ _ _
  isplitl [H0]
  · iexists d0; rw [h0]; iexact H0
  isplitl [H1]
  · iexists d1; rw [h1]; iexact H1
  isplitl [H2]
  · iexists _; iexact H2
  · iexists _; iexact H3

/-- The library's body obligation, the outputs' windows unread. -/
theorem body_obligation (c : Dev nD) :
    BodyObligationLoose (dats (F := F) m 0 c) (defs₀ (F := F)) Variants.none () Set.univ unread := fun t => by
  rw [bigSep_W0, bigSep_W0]
  exact sound_body m c t

end Cert.Kernel.FrameRun

end
-- ==== Proof.BitsRun.lean ====
/-
  The run of the program at any float instance, and its frame: every weakly fair execution ends, faults nowhere,
  and the two argument arrays end as they began. The host lines after the region write only their own result
  buffers, none of which is an argument; the region itself writes only the two output arrays.
-/
import proofs.«113113_j7301444403962_2_alg».proof.Proof.BitsFrame
import Idealize.ShloMosaic.Lib.Pipeline.FrameSuffix

set_option maxRecDepth 16384

noncomputable section

namespace Cert.Kernel.FrameRun

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

variable (m : (ℓ : Loc nD τ sig) → Buf (Elt F) ℓ) (ρ : Dev nD → PrngReg)

/-- The host lines after the region, stretch by stretch. -/
abbrev tail : List (List (HloOp τ sig (Elt F))) := [hostOps1, hostOps1_1, hostOps1_2, hostOps1_3, hostOps1_4]

open Classical in
/-- The buffers some host line after the region writes. -/
def written : Finset (Ref sig .tc) :=
  Finset.univ.filter fun b => ∃ ops ∈ (tail (F := F)), ∃ op ∈ ops, Proc.devRef .tc b ∈ op.writes

theorem mem_written : ∀ ops ∈ (tail (F := F)), ∀ op ∈ ops, ∀ b : Ref sig .tc, Proc.devRef .tc b ∈ op.writes → b ∈ written (F := F) :=
  fun ops hops op hop b hb => by
    classical
    exact Finset.mem_filter.mpr ⟨Finset.mem_univ _, ops, hops, op, hop, hb⟩

set_option backward.isDefEq.respectTransparency.types false in
/-- The run, with nothing said of the outputs' contents: every array of the pipeline ends at contents it may hold, every
    other unscoped buffer no later line writes at what the region found there. -/
theorem run_frame : θ_run defs (onTc (τ := τ) (main (F := F))) (s₀ m ρ)
    (RDat.FramePostR cfg0 (fun c => (dats m 0 c).toRForget unread) (written (F := F)) (fun c b => V0 m c (Proc.devRef .tc b))) :=
  RDat.θ_run_frame_around_T cfgs (0 : Fin 1) launch0 defs₀ Variants.none (fun c => (dats m 0 c).toRForget unread) (written (F := F)) m ρ main
    (hbody := fun c => (body_obligation m c).toRForget)
    (hshare := fun c => ((dats m 0 c).toRForget unread).share_full fun _ => rfl)
    (howed := fun _ _ => rfl) (V₀ := V0 m) (opss := tail)
    (hsub := sfx_sub) (hfresh := sfx_fresh) (hkeep := sfx_keeps) (hT := mem_written)
    (hmain := hmain m Variants.none) (hA := fun c w => A_eq m c w) (hΦ := fun _ _ => rfl)

/-- No host line after the region writes the first argument, -/
theorem tail_keeps_arg0 : ∀ op ∈ (tail (F := F)).flatten, Proc.devRef .tc main_arg0 ∉ op.writes :=
  List.forall_iff_forall_mem.mp (by
    simp only [tail, hostOps1, hostOps1_1, hostOps1_2, hostOps1_3, hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- nor the second. -/
theorem tail_keeps_arg1 : ∀ op ∈ (tail (F := F)).flatten, Proc.devRef .tc main_arg1 ∉ op.writes :=
  List.forall_iff_forall_mem.mp (by
    simp only [tail, hostOps1, hostOps1_1, hostOps1_2, hostOps1_3, hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

theorem arg0_not_written : main_arg0 ∉ written (F := F) := by
  classical
  intro h
  obtain ⟨-, ops, hops, op, hop, hb⟩ := Finset.mem_filter.mp h
  exact tail_keeps_arg0 op (List.mem_flatten.mpr ⟨ops, hops, hop⟩) hb
theorem arg1_not_written : main_arg1 ∉ written (F := F) := by
  classical
  intro h
  obtain ⟨-, ops, hops, op, hop, hb⟩ := Finset.mem_filter.mp h
  exact tail_keeps_arg1 op (List.mem_flatten.mpr ⟨ops, hops, hop⟩) hb

/-- THE FRAME, at any float instance: the program runs to the end and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Finset.mem_sdiff.mpr ⟨Pipeline.mem_restRefs_of main_arg0 (by decide) (by decide), arg0_not_written⟩)).trans (V_main_arg0 m c),
     ((h c).2 main_arg1 (Finset.mem_sdiff.mpr ⟨Pipeline.mem_restRefs_of main_arg1 (by decide) (by decide), arg1_not_written⟩)).trans (V_main_arg1 m c)⟩)
    (run_frame m ρ)

end Cert.Kernel.FrameRun

end
-- ==== Proof.IdealBody.lean ====
/-
  The kernel body of the masked squared-error reduction, run once on whole staging buffers: it loads the
  two [2000, 640] input tiles, forms their difference, squares it under the not-NaN mask, sums each column over
  the 2000 rows into the first [1, 640] output tile, and sums the mask itself into the second. Stated for any
  float instance: after the body the inputs' buffers hold what they held, and each output's buffer holds the
  one stored tile, a pure function of the two loaded tiles.
-/
import proofs.«113113_j7301444403962_2_alg».proof.Proof.Gen.KernelIdeal.Frame
import proofs.«113113_j7301444403962_2_alg».proof.Proof.Gen.KernelIdeal.Skeleton
import Idealize.ShloMosaic.Lib.Pipeline.FrameBody
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole [2000, 640] input tile, as the rectangle both loads read. -/
abbrev rIn : Rect S2000x640 := Rect.unit (s := S2000x640) ![0, 0] S2000x640.size inb_S2000x640_S2000x640_0_0
/-- The whole [1, 640] output tile, as the rectangle both stores write. -/
abbrev rOut : Rect S1x640 := Rect.unit (s := S1x640) ![0, 0] S1x640.size inb_S1x640_S1x640_0_0

/-- What the first output tile holds after the body: the column sums of the masked squared differences. -/
def outSq (x0 x1 : Vec F S2000x640 .f32) : Vec F S1x640 .f32 :=
  View.canon [⟨rOut, k0_pay3 (View.ld x0 rIn) (View.ld x1 rIn)⟩]
/-- What the second output tile holds after the body: the column sums of the mask. -/
def outCnt (x0 x1 : Vec F S2000x640 .f32) : Vec F S1x640 .f32 :=
  View.canon [⟨rOut, k0_pay4 (View.ld x0 rIn) (View.ld x1 rIn)⟩]

/-- One store of the whole tile covers the tile. -/
theorem cover_out (p0 : Vec F S1x640 .f32) (y : S1x640.Idx) :
    ∃ pc ∈ ([⟨rOut, p0⟩] : List (View.Piece (Elt F) S1x640 .f32)), y ∈ pc.1.set :=
  View.cover_of_tiled [⟨rOut, p0⟩] S1x640.size (by rfl) y

set_option maxHeartbeats 1000000 in
/-- The body on whole staging memrefs: the inputs' at contents `x0`, `x1`, the outputs' at anything; it ends with
    the inputs' as they were and the outputs' at `outSq x0 x1` and `outCnt x0 x1`. -/
theorem sound_kernel (c : Dev nD) (E : Set ℕ) (i : grid0.Coords)
    (arg1 : Memref sig .tc .vmem S2000x640 .f32) (harg1 : arg1.IsWhole)
    (arg2 : Memref sig .tc .vmem S2000x640 .f32) (harg2 : arg2.IsWhole)
    (arg3 : Memref sig .tc .vmem S1x640 .f32) (harg3 : arg3.IsWhole)
    (arg4 : Memref sig .tc .vmem S1x640 .f32) (harg4 : arg4.IsWhole)
    (x0 x1 : Vec F S2000x640 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
              ∗ owns (c : Thread nD τ) arg3 fullShare (outSq x0 x1) ∗ owns (c : Thread nD τ) arg4 fullShare (outCnt x0 x1)) -∗ K ⟨⟩))
      ⊢ wp frame (wpE (defs₀ (F := F)) Variants.none c none) E
          (cc0__reduce_kernel i arg1 harg1 arg2 harg2 arg3 harg3 arg4 harg4) K := by
  simp only [cc0__reduce_kernel_eq_skeleton]; unfold cc0__reduce_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_out _)
  · iexists _; isplitr
    swap; · iexact H3
    ipureintro
    exact View.read_writes_eq_canon _ _ _ (cover_out _)

end Cert.KernelIdeal.Body

end
-- ==== Proof.LibIndicatorSum.lean ====
/-
  The count of a 0/1 indicator, two ways. An integer sum of one-bit words widened to 32 bits, read as a number, is the
  sum of the words each read as a number — as long as there are fewer than 2³¹ of them, so that the integer sum does not
  wrap. One program counts in integers and converts once; the other converts every word and sums the numbers.
  Also: a finite sum of reals, taken in the extended reals, is the real sum.
-/
import Idealize.ShloMosaic.PureOps.Ideal.Laws
import Idealize.ShloMosaic.Lib.IndicatorCount
import Idealize.ShloMosaic.Lib.KernelVsHost

open scoped BigOperators

namespace Cert.IndicatorSum

open Idealize.ShloMosaic

/-- A finite sum of real numbers, computed in the extended reals, is the real sum. -/
theorem coe_sum {ι : Type} (S : Finset ι) (f : ι → ℝ) :
    ∑ k ∈ S, ((f k : ℝ) : EReal) = ((∑ k ∈ S, f k : ℝ) : EReal) := by
  classical
  induction S using Finset.induction_on with
  | empty => simp
  | insert a S ha ih => rw [Finset.sum_insert ha, Finset.sum_insert ha, ih, EReal.coe_add]

/-- A one-bit word is the number 1 when it is the word 1, else 0. -/
theorem bit_toNat : ∀ b : BitVec 1, b.toNat = if b = 1#1 then 1 else 0 := by decide

/-- A one-bit word widened to 32 bits and read as a signed number is 1 or 0. -/
theorem sitofp_bit (b : BitVec 1) :
    (FloatOps.sitofp (F := Ideal) .f32 (b.setWidth 32) : EReal) = (((if b = 1#1 then 1 else 0 : ℕ) : ℝ) : EReal) := by
  show ((((b.setWidth 32).toInt : ℤ) : ℝ) : EReal) = _
  rw [toInt_setWidth_bit, bit_toNat]
  norm_cast

/-- A natural number below 2³¹, as a 32-bit word read signed, is itself. -/
theorem toInt_ofNat_small (n : ℕ) (hn : n < 2 ^ 31) : (BitVec.ofNat 32 n).toInt = (n : ℤ) := by
  rw [BitVec.toInt_eq_toNat_cond, BitVec.toNat_ofNat]
  have e : n % 2 ^ 32 = n := Nat.mod_eq_of_lt (by omega)
  rw [e]
  split
  · rfl
  · omega

/-- The integer count converted once is the sum of the converted words. -/
theorem sitofp_fold_addi {ι : Type} (S : Finset ι) (p : ι → BitVec 1) (hS : S.card < 2 ^ 31) :
    (FloatOps.sitofp (F := Ideal) .f32 (S.fold IntOp.addi (0#32) (fun k => (p k).setWidth 32)) : EReal)
      = ∑ k ∈ S, (FloatOps.sitofp (F := Ideal) .f32 ((p k).setWidth 32) : EReal) := by
  classical
  rw [IndicatorCount.fold_addi_setWidth_eq_card]
  have hn : (S.filter fun k => p k = 1#1).card < 2 ^ 31 := lt_of_le_of_lt (Finset.card_filter_le _ _) hS
  have e1 : (FloatOps.sitofp (F := Ideal) .f32 (BitVec.ofNat 32 (S.filter fun k => p k = 1#1).card) : EReal)
      = (((S.filter fun k => p k = 1#1).card : ℝ) : EReal) := by
    show ((((BitVec.ofNat 32 _).toInt : ℤ) : ℝ) : EReal) = _
    rw [toInt_ofNat_small _ hn]
    norm_cast
  rw [e1, Finset.sum_congr rfl fun k _ => sitofp_bit (p k), coe_sum, Finset.card_filter]
  norm_cast

/-- The host's count along ONE axis — an integer `reduce` by addition, from zero, of one-bit words widened to 32 bits —
    converted to a number once, is the sum over that axis's coordinates of the words each converted: the axis is shorter
    than 2³¹, so the integer sum does not wrap. -/
theorem sitofp_hostReduce_addi {s t : Shape} {a : Fin s.rank} (h' : s.ReducesTo [a] t) (h : s.Reduces [a] t)
    {u : Shape} (hu : 0 < u.numel) (init : u.Idx → BitVec 32) (hinit : init (Shape.Idx.first hu) = 0#32)
    (p : s.Idx → BitVec 1) (hsz : s.size a < 2 ^ 31) (j : t.Idx) :
    (FloatOps.sitofp (F := Ideal) .f32 (Host.reduce IntOp.addi (fun i => (p i).setWidth 32) init h' hu j) : EReal)
      = ∑ k : Fin (s.size a), (FloatOps.sitofp (F := Ideal) .f32 ((p (h.lift j k)).setWidth 32) : EReal) := by
  rw [Host.reduce_eq_fold, hinit, Shape.ReducesTo.drop_eq_drop h' h]
  have hcard : (Finset.univ.filter fun i => h.drop i = j).card = s.size a := by
    rw [Finset.card_eq_sum_ones, h.sum_filter_drop_single (fun _ => 1) j]
    simp
  rw [sitofp_fold_addi _ p (by rw [hcard]; exact hsz)]
  exact h.sum_filter_drop_single (fun i => (FloatOps.sitofp (F := Ideal) .f32 ((p i).setWidth 32) : EReal)) j

end Cert.IndicatorSum
-- ==== Proof.IdealPayload.lean ====
/-
  The body's two stored tiles read at an index, at the ideal instance. The mask `not (d ≠ d)` is true of every extended
  real `d` (nothing is unordered there), so the first tile's column `q` is the plain sum over the 2000 rows of the squared
  differences of that column, and the second tile's column `q` is the sum of 2000 ones: the number 2000. Each column reads
  the two loaded tiles in that column only.
-/
import proofs.«113113_j7301444403962_2_alg».proof.Proof.IdealBody
import Idealize.ShloMosaic.Lib.ValueIdx
import Idealize.ShloMosaic.Lib.Pipeline.Value
import Idealize.ShloMosaic.PureOps.Ideal.Laws
import proofs.«113113_j7301444403962_2_alg».proof.Proof.LibIndicatorSum

noncomputable section

open scoped BigOperators

namespace Cert.KernelIdeal.Payload

open Cert.KernelIdeal Cert.KernelIdeal.Gen Cert.KernelIdeal.Body
open Idealize.ShloMosaic Idealize.ShloMosaic.ValueIdx

/-- The zero offsets of a whole-tile access, however spelt. -/
theorem hz : (![0, 0] : Fin 2 → Nat) = fun _ => 0 := funext fun a => by fin_cases a <;> rfl

/-- One store of the whole tile leaves its payload, the loads reading the whole tiles. -/
theorem outSq_eq {F : FTy → Type} [FloatOps F] (x0 x1 : Vec F S2000x640 .f32) : outSq x0 x1 = k0_pay3 x0 x1 := by
  unfold outSq
  rw [View.canon_unit_zero hz]
  simp only [View.ld_unit_zero (S := S2000x640) hz]
theorem outCnt_eq {F : FTy → Type} [FloatOps F] (x0 x1 : Vec F S2000x640 .f32) : outCnt x0 x1 = k0_pay4 x0 x1 := by
  unfold outCnt
  rw [View.canon_unit_zero hz]
  simp only [View.ld_unit_zero (S := S2000x640) hz]

/-- The difference tile at an index. -/
theorem pay1_apply (X0 X1 : Vec Ideal S2000x640 .f32) (i : S2000x640.Idx) : k0_pay1 (F := Ideal) X0 X1 i = X0 i - X1 i := by
  unfold k0_pay1
  simp only [shapeCast_self]
  rfl

/-- The mask is true everywhere: an extended real is never different from itself. -/
theorem pay2_apply (X0 X1 : Vec Ideal S2000x640 .f32) (i : S2000x640.Idx) : k0_pay2 (F := Ideal) X0 X1 i = 1#1 := by
  show IntOp.xori (Ideal.cmp .one (k0_pay1 (F := Ideal) X0 X1 i) (k0_pay1 (F := Ideal) X0 X1 i)) 1#1 = 1#1
  have h : Ideal.cmp .one (k0_pay1 (F := Ideal) X0 X1 i) (k0_pay1 (F := Ideal) X0 X1 i) = 0#1 := by simp [Ideal.cmp]
  rw [h]; rfl

/-- Column `q` of the reduced vector sits at row 0, column `q` of the stored [1, 640] tile. -/
theorem row_pos (p : Fin 1) (q : Fin 640) : (S640.rowMajor (ix1 q)).val = (S1x640.rowMajor (ix2 p q)).val := by
  rw [Shape.rowMajor_val_one, Shape.rowMajor_val_two]
  have h0 : p.val < 1 := p.isLt
  show q.val = p.val * 640 + q.val
  omega

/-- The index of row `r` in the column the reduction writes at `q`. -/
theorem lift_eq (q : Fin 640) (r : Fin 2000) : reduces_S2000x640_S640.lift (ix1 q) r = ix2 r q := by
  funext a; apply Fin.ext
  match a with
  | ⟨0, _⟩ => rfl
  | ⟨1, _⟩ => rfl

/-- One term of the first tile's column sum: the mask true, the selected value the squared difference. -/
theorem sq_term (X0 X1 z : Vec Ideal S2000x640 .f32) (q : Fin 640) (r : Fin 2000) :
    select (k0_pay2 (F := Ideal) X0 X1) (mulf (k0_pay1 (F := Ideal) X0 X1) (k0_pay1 (F := Ideal) X0 X1)) z (reduces_S2000x640_S640.lift (ix1 q) r)
      = (X0 (ix2 r q) - X1 (ix2 r q)) * (X0 (ix2 r q) - X1 (ix2 r q)) := by
  rw [lift_eq]
  show Scalar.select (k0_pay2 (F := Ideal) X0 X1 (ix2 r q))
      (k0_pay1 (F := Ideal) X0 X1 (ix2 r q) * k0_pay1 (F := Ideal) X0 X1 (ix2 r q)) _ = _
  rw [pay2_apply, select_one, pay1_apply]

/-- One term of the second tile's column sum: the mask's bit as a number, 1. -/
theorem cnt_term (X0 X1 : Vec Ideal S2000x640 .f32) (q : Fin 640) (r : Fin 2000) :
    (sitofp (F := Ideal) .f32 (extui 32 (k0_pay2 (F := Ideal) X0 X1) natLt_1_32)) (reduces_S2000x640_S640.lift (ix1 q) r)
      = (((1 : ℝ)) : EReal) := by
  show ((((k0_pay2 (F := Ideal) X0 X1 (reduces_S2000x640_S640.lift (ix1 q) r)).setWidth 32).toInt : ℝ) : EReal) = _
  rw [pay2_apply]
  have e : ((1#1 : BitVec 1).setWidth 32).toInt = 1 := by decide
  rw [e]; norm_num

/-- THE FIRST TILE: column `q` is the sum over the rows of the squared differences in that column. -/
theorem pay3_apply (X0 X1 : Vec Ideal S2000x640 .f32) (p : Fin 1) (q : Fin 640) :
    k0_pay3 (F := Ideal) X0 X1 (ix2 p q)
      = ∑ r : Fin 2000, (X0 (ix2 r q) - X1 (ix2 r q)) * (X0 (ix2 r q) - X1 (ix2 r q)) := by
  unfold k0_pay3
  refine (shapeCast_apply _ shapeCasts_S640_S1x640 (ix2 p q) (ix1 q) (row_pos p q)).trans ?_
  refine (Ideal.multiReduction_add_single _ _ reduces_S2000x640_S640 _ _ (ix1 q)).trans ?_
  exact Finset.sum_congr rfl fun r _ => sq_term X0 X1 _ q r

/-- THE SECOND TILE: every column is the count of the rows, 2000. -/
theorem pay4_apply (X0 X1 : Vec Ideal S2000x640 .f32) (p : Fin 1) (q : Fin 640) :
    k0_pay4 (F := Ideal) X0 X1 (ix2 p q) = ((2000 : ℝ) : EReal) := by
  unfold k0_pay4
  refine (shapeCast_apply _ shapeCasts_S640_S1x640 (ix2 p q) (ix1 q) (row_pos p q)).trans ?_
  refine (Ideal.multiReduction_add_single _ _ reduces_S2000x640_S640 _ _ (ix1 q)).trans ?_
  refine (Finset.sum_congr rfl fun r _ => cnt_term X0 X1 q r).trans ?_
  show ∑ r : Fin 2000, (((1 : ℝ)) : EReal) = _
  rw [Cert.IndicatorSum.coe_sum]
  simp

/-- The same two facts of the stored tiles themselves. -/
theorem outSq_apply (X0 X1 : Vec Ideal S2000x640 .f32) (p : Fin 1) (q : Fin 640) :
    outSq (F := Ideal) X0 X1 (ix2 p q)
      = ∑ r : Fin 2000, (X0 (ix2 r q) - X1 (ix2 r q)) * (X0 (ix2 r q) - X1 (ix2 r q)) := by
  rw [outSq_eq]; exact pay3_apply X0 X1 p q
theorem outCnt_apply (X0 X1 : Vec Ideal S2000x640 .f32) (p : Fin 1) (q : Fin 640) :
    outCnt (F := Ideal) X0 X1 (ix2 p q) = ((2000 : ℝ) : EReal) := by
  rw [outCnt_eq]; exact pay4_apply X0 X1 p q

end Cert.KernelIdeal.Payload

end
-- ==== Proof.IdealData.lean ====
/-
  The idealized program's proof data and run. The last block of each window overhangs the [·, 30000] arrays by 80
  columns: a staging buffer then holds its block on the 560 columns inside the array and words nothing names past
  them. The body sums every column of the tile separately, so on the columns inside the array what it leaves in the
  two output buffers does not depend on those unnamed words: it is what the body computes from the blocks filled out
  with zeros. That is all the pipeline needs of an output whose write-back is cut at the array's end.
-/
import proofs.«113113_j7301444403962_2_alg».proof.Proof.IdealPayload
import Idealize.ShloMosaic.Lib.Pipeline.Kit
import Idealize.ShloMosaic.Lib.Pipeline.FrameSuffix

set_option maxRecDepth 16384

noncomputable section

open scoped BigOperators

namespace Cert.KernelIdeal.ValueRun

open Cert.KernelIdeal Cert.KernelIdeal.Gen Cert.KernelIdeal.Body Cert.KernelIdeal.Payload
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## Which columns a cut transfer moves -/

/-- The filler past the array's end: zeros. -/
abbrev zeros : S2000x640.Idx → Elt Ideal .f32 := fun _ => (0 : EReal)

/-- The input windows are never cut on the row axis: all 2000 rows move. -/
theorem xsize_rows (i : grid0.Coords) : win0_0.xsize i 0 = 2000 ∧ win0_1.xsize i 0 = 2000 := ⟨rfl, rfl⟩
/-- The four windows share one index map on the column axis, so they are cut alike there. -/
theorem xsize_cols (i : grid0.Coords) :
    win0_0.xsize i 1 = win0_2.xsize i 1 ∧ win0_1.xsize i 1 = win0_2.xsize i 1 ∧ win0_3.xsize i 1 = win0_2.xsize i 1 := ⟨rfl, rfl, rfl⟩

/-- On a column the transfers move, a filled-out input tile is its block, whatever fills it out. -/
theorem fill0_col (i : grid0.Coords) (d : S2000x640.Idx → Elt Ideal .f32) (g : (win0_0.xblock i).Idx → Elt Ideal .f32)
    (r : Fin 2000) (q : Fin 640) (hq : q.val < win0_2.xsize i 1) :
    win0_0.fill i d g (ix2 r q) = win0_0.fill i zeros g (ix2 r q) := by
  have hm : win0_0.moved i (ix2 r q) = true := (win0_0.moved_iff i _).mpr fun a => by
    match a with
    | ⟨0, _⟩ => show r.val < win0_0.xsize i 0; rw [(xsize_rows i).1]; exact r.isLt
    | ⟨1, _⟩ => show q.val < win0_0.xsize i 1; rw [(xsize_cols i).1]; exact hq
  unfold Window.fill; rw [dif_pos hm, dif_pos hm]
theorem fill1_col (i : grid0.Coords) (d : S2000x640.Idx → Elt Ideal .f32) (g : (win0_1.xblock i).Idx → Elt Ideal .f32)
    (r : Fin 2000) (q : Fin 640) (hq : q.val < win0_2.xsize i 1) :
    win0_1.fill i d g (ix2 r q) = win0_1.fill i zeros g (ix2 r q) := by
  have hm : win0_1.moved i (ix2 r q) = true := (win0_1.moved_iff i _).mpr fun a => by
    match a with
    | ⟨0, _⟩ => show r.val < win0_1.xsize i 0; rw [(xsize_rows i).2]; exact r.isLt
    | ⟨1, _⟩ => show q.val < win0_1.xsize i 1; rw [(xsize_cols i).2.1]; exact hq
  unfold Window.fill; rw [dif_pos hm, dif_pos hm]

/-- An index of an output window's moved part, by coordinates. -/
theorem xinj2_eq (i : grid0.Coords) (j : (win0_2.xblock i).Idx) :
    ∃ (p : Fin 1) (q : Fin 640), win0_2.xinj i j = ix2 p q ∧ q.val < win0_2.xsize i 1 :=
  ⟨⟨(j 0).val, Nat.lt_of_lt_of_le (j 0).isLt (win0_2.xsize_le i 0)⟩, ⟨(j 1).val, Nat.lt_of_lt_of_le (j 1).isLt (win0_2.xsize_le i 1)⟩,
    funext fun a => by match a with | ⟨0, _⟩ => rfl | ⟨1, _⟩ => rfl, (j 1).isLt⟩
theorem xinj3_eq (i : grid0.Coords) (j : (win0_3.xblock i).Idx) :
    ∃ (p : Fin 1) (q : Fin 640), win0_3.xinj i j = ix2 p q ∧ q.val < win0_2.xsize i 1 :=
  ⟨⟨(j 0).val, Nat.lt_of_lt_of_le (j 0).isLt (win0_3.xsize_le i 0)⟩, ⟨(j 1).val, Nat.lt_of_lt_of_le (j 1).isLt (win0_3.xsize_le i 1)⟩,
    funext fun a => by match a with | ⟨0, _⟩ => rfl | ⟨1, _⟩ => rfl, (xsize_cols i).2.2 ▸ (j 1).isLt⟩

/-- WHAT THE WRITE-BACK MOVES of the first output does not depend on what fills the inputs out. -/
theorem cut_outSq (i : grid0.Coords) (d0 d1 : S2000x640.Idx → Elt Ideal .f32)
    (g0 : (win0_0.xblock i).Idx → Elt Ideal .f32) (g1 : (win0_1.xblock i).Idx → Elt Ideal .f32) :
    win0_2.cut i (outSq (F := Ideal) (win0_0.fill i d0 g0) (win0_1.fill i d1 g1))
      = win0_2.cut i (outSq (F := Ideal) (win0_0.fill i zeros g0) (win0_1.fill i zeros g1)) := by
  funext j
  obtain ⟨p, q, hpq, hq⟩ := xinj2_eq i j
  show outSq (F := Ideal) _ _ (win0_2.xinj i j) = outSq (F := Ideal) _ _ (win0_2.xinj i j)
  rw [hpq, outSq_apply, outSq_apply]
  refine Finset.sum_congr rfl fun r _ => ?_
  rw [fill0_col i d0 g0 r q hq, fill1_col i d1 g1 r q hq]
/-- Nor of the second. -/
theorem cut_outCnt (i : grid0.Coords) (d0 d1 : S2000x640.Idx → Elt Ideal .f32)
    (g0 : (win0_0.xblock i).Idx → Elt Ideal .f32) (g1 : (win0_1.xblock i).Idx → Elt Ideal .f32) :
    win0_3.cut i (outCnt (F := Ideal) (win0_0.fill i d0 g0) (win0_1.fill i d1 g1))
      = win0_3.cut i (outCnt (F := Ideal) (win0_0.fill i zeros g0) (win0_1.fill i zeros g1)) := by
  funext j
  obtain ⟨p, q, hpq, hq⟩ := xinj3_eq i j
  show outCnt (F := Ideal) _ _ (win0_3.xinj i j) = outCnt (F := Ideal) _ _ (win0_3.xinj i j)
  rw [hpq, outCnt_apply, outCnt_apply]

/-! ## The proof data -/

/-- The first input's block at point `t`, filled out to the whole tile with zeros; -/
def tile0 (c : Dev nD) (t : Fin cfg0.N) : S2000x640.Idx → Elt Ideal .f32 :=
  win0_0.fill (grid0.coords t) zeros (iblk m c 0 t)
/-- the second's. -/
def tile1 (c : Dev nD) (t : Fin cfg0.N) : S2000x640.Idx → Elt Ideal .f32 :=
  win0_1.fill (grid0.coords t) zeros (iblk m c 1 t)

/-- The proof data: the arrays as the region finds them; after the body the inputs' buffers at their blocks, the
    outputs' at the body's two tiles of the zero-filled blocks (each on the columns inside the array). -/
def dats (_ : Fin 1) (c : Dev nD) : Dat τ (Elt Ideal) Unit ℕ (UR sig nD τ) ℕ cfg0 c where
  A w := V m c (Pipeline.arrRef spec0 w)
  after w t := match w with
    | ⟨0, _⟩ => tile0 m c t
    | ⟨1, _⟩ => tile1 m c t
    | ⟨2, _⟩ => outSq (F := Ideal) (tile0 m c t) (tile1 m c t)
    | ⟨3, _⟩ => outCnt (F := Ideal) (tile0 m c t) (tile1 m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = tile0 m c t := by dsimp only [dats]
theorem after_1 (c : Dev nD) (t : Fin cfg0.N) : (dats m 0 c).after 1 t = tile1 m c t := by dsimp only [dats]
theorem after_2 (c : Dev nD) (t : Fin cfg0.N) : (dats m 0 c).after 2 t = outSq (F := Ideal) (tile0 m c t) (tile1 m c t) := by dsimp only [dats]
theorem after_3 (c : Dev nD) (t : Fin cfg0.N) : (dats m 0 c).after 3 t = outCnt (F := Ideal) (tile0 m c t) (tile1 m c t) := by dsimp only [dats]

/-- Each input's buffer, fetched at every point: its block on the columns inside the array, `d` past them. -/
theorem before_0 (c : Dev nD) (t : Fin cfg0.N) (d) :
    (dats m 0 c).before 0 t d = win0_0.fill (grid0.coords t) d (iblk m c 0 t) := by
  unfold Dat.before; rw [if_pos (fetch0_0 t)]; rfl
theorem before_1 (c : Dev nD) (t : Fin cfg0.N) (d) :
    (dats m 0 c).before 1 t d = win0_1.fill (grid0.coords t) d (iblk m c 1 t) := by
  unfold Dat.before; rw [if_pos (fetch0_1 t)]; rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  rw [before_0 m c t d0, before_1 m c t d1]
  iapply (sound_kernel c Set.univ (grid0.coords t) _ _ _ _ _ _ _ _
    (win0_0.fill (grid0.coords t) d0 (iblk m c 0 t)) (win0_1.fill (grid0.coords t) d1 (iblk m c 1 t)) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  have h0 : win0_0.cut (grid0.coords t) (tile0 m c t) = iblk m c 0 t := win0_0.cut_fill _ _ _
  have h1 : win0_1.cut (grid0.coords t) (tile1 m c t) = iblk m c 1 t := win0_1.cut_fill _ _ _
  have h2 := cut_outSq (grid0.coords t) d0 d1 (iblk m c 0 t) (iblk m c 1 t)
  have h3 := cut_outCnt (grid0.coords t) d0 d1 (iblk m c 0 t) (iblk m c 1 t)
  isplitl [H0]
  · iexists d0; rw [h0]; iexact H0
  isplitl [H1]
  · iexists d1; rw [h1]; iexact H1
  isplitl [H2]
  · iexists (outSq (F := Ideal) (win0_0.fill (grid0.coords t) d0 (iblk m c 0 t)) (win0_1.fill (grid0.coords t) d1 (iblk m c 1 t)))
    unfold tile0 tile1
    rw [← h2, win0_2.fill_cut]; iexact H2
  · iexists (outCnt (F := Ideal) (win0_0.fill (grid0.coords t) d0 (iblk m c 0 t)) (win0_1.fill (grid0.coords t) d1 (iblk m c 1 t)))
    unfold tile0 tile1
    rw [← h3, win0_3.fill_cut]; iexact H3

/-- The library's body obligation: every window stated on the part its transfers move. -/
theorem body_obligation (c : Dev nD) :
    BodyObligationLoose (dats m 0 c) (defs₀ (F := Ideal)) Variants.none () Set.univ := fun t => by
  rw [bigSep_W0, bigSep_W0]
  exact sound_body m c t

/-! ## The run and the frame -/

/-- The host lines after the region, stretch by stretch. -/
abbrev tail : List (List (HloOp τ sig (Elt Ideal))) := [hostOps1, hostOps1_1, hostOps1_2, hostOps1_3, hostOps1_4]

set_option backward.isDefEq.respectTransparency.types false in
/-- Every weakly fair execution ends; the pipeline's arrays end at what the library computes from the proof data and every
    other unscoped buffer at the later host lines' result from those. -/
theorem run_main : θ_run defs (onTc (τ := τ) (main (F := Ideal))) (s₀ m ρ)
    (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => body_obligation m c)
    (hshare := fun c => (dats m 0 c).share_full fun _ => rfl)
    (howed := fun _ _ => rfl) (V₀ := V0 m) (opss := tail)
    (hsub := sfx_sub) (hfresh := sfx_fresh) (hkeep := sfx_keeps)
    (hmain := hmain m Variants.none) (hA := fun c w => A_eq m c w) (hΦ := fun _ _ => rfl)

/-- THE FRAME of the idealized program. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.ValueRun

end
-- ==== Proof.IdealArrays.lean ====
/-
  What the two output arrays hold after the region. Point `t` writes back columns 640·t … of the [1, 30000] arrays (the
  last point only 560 of them), and what it writes at column `J` is the column sum over the 2000 rows of the [2000, 30000]
  inputs at that same column `J`: the blocks of all four windows sit at the same columns. The 47 blocks cover every
  column, so each output array ends as ONE function of the two input arrays.
-/
import proofs.«113113_j7301444403962_2_alg».proof.Proof.IdealData
import Idealize.ShloMosaic.Lib.Pipeline.Value

set_option maxRecDepth 16384

noncomputable section

open scoped BigOperators

namespace Cert.KernelIdeal.ValueRun

open Cert.KernelIdeal Cert.KernelIdeal.Gen Cert.KernelIdeal.Body Cert.KernelIdeal.Payload
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- Row `r` of the [2000, 30000] inputs at the column of an index of the [1, 30000] outputs. -/
abbrev above (r : Fin 2000) (i : S1x30000.Idx) : S2000x30000.Idx := fun a => match a with
  | ⟨0, _⟩ => ⟨r.val, r.isLt⟩
  | ⟨1, _⟩ => ⟨(i 1).val, (i 1).isLt⟩

/-- The column sums of the squared differences of two [2000, 30000] arrays. -/
def colSq (A0 A1 : S2000x30000.Idx → EReal) : S1x30000.Idx → EReal := fun i =>
  ∑ r : Fin 2000, (A0 (above r i) - A1 (above r i)) * (A0 (above r i) - A1 (above r i))
/-- The count of the rows, at every column. -/
def colCnt : S1x30000.Idx → EReal := fun _ => ((2000 : ℝ) : EReal)

/-- The printed index maps and cuts, decided once over the 47 points: every window's block sits at column block `t`, the
    inputs' at row block 0; the outputs' blocks have one row; and block `t`'s columns end at the array's end or the block's. -/
theorem idx_facts : ∀ t : Fin cfg0.N, win0_0.index t (0 : Fin 2) = 0 ∧ win0_1.index t (0 : Fin 2) = 0
    ∧ win0_0.index t (1 : Fin 2) = win0_2.index t (1 : Fin 2) ∧ win0_1.index t (1 : Fin 2) = win0_2.index t (1 : Fin 2)
    ∧ win0_3.index t (1 : Fin 2) = win0_2.index t (1 : Fin 2)
    ∧ win0_2.index t (0 : Fin 2) = 0 ∧ win0_3.index t (0 : Fin 2) = 0 ∧ win0_2.index t (1 : Fin 2) = t.val
    ∧ win0_2.xsize (grid0.coords t) (0 : Fin 2) = 1 ∧ win0_3.xsize (grid0.coords t) (0 : Fin 2) = 1
    ∧ t.val * 640 + win0_2.xsize (grid0.coords t) (1 : Fin 2) = min ((t.val + 1) * 640) 30000 :=
  (by decide +kernel : ∀ t : Fin grid0.N, _)

/-- An index of an output window's moved part by coordinates, its column named. -/
theorem xinj2_col (i : grid0.Coords) (j : (win0_2.xblock i).Idx) :
    ∃ (p : Fin 1) (q : Fin 640), win0_2.xinj i j = ix2 p q ∧ q.val < win0_2.xsize i 1 ∧ q.val = (j 1).val :=
  ⟨⟨(j 0).val, Nat.lt_of_lt_of_le (j 0).isLt (win0_2.xsize_le i 0)⟩, ⟨(j 1).val, Nat.lt_of_lt_of_le (j 1).isLt (win0_2.xsize_le i 1)⟩,
    funext fun a => by match a with | ⟨0, _⟩ => rfl | ⟨1, _⟩ => rfl, (j 1).isLt, rfl⟩
theorem xinj3_col (i : grid0.Coords) (j : (win0_3.xblock i).Idx) :
    ∃ (p : Fin 1) (q : Fin 640), win0_3.xinj i j = ix2 p q ∧ q.val < win0_2.xsize i 1 ∧ q.val = (j 1).val :=
  ⟨⟨(j 0).val, Nat.lt_of_lt_of_le (j 0).isLt (win0_3.xsize_le i 0)⟩, ⟨(j 1).val, Nat.lt_of_lt_of_le (j 1).isLt (win0_3.xsize_le i 1)⟩,
    funext fun a => by match a with | ⟨0, _⟩ => rfl | ⟨1, _⟩ => rfl, (xsize_cols i).2.2 ▸ (j 1).isLt, rfl⟩

/-- The zero-filled first input tile at row `r` and a moved column `q` is the input array at row `r` and the block's column. -/
theorem tile0_at (c : Dev nD) (t : Fin cfg0.N) (r : Fin 2000) (q : Fin 640) (hq : q.val < win0_2.xsize (grid0.coords t) 1)
    (i : S1x30000.Idx) (hi : (i 1).val = win0_2.index t (1 : Fin 2) * 640 + q.val) :
    tile0 m c t (ix2 r q) = V m c main_v0 (above r i) := by
  obtain ⟨e0, e1, e2, e3, e4, e5, e6, e7, e8, e9, e10⟩ := idx_facts t
  have hr : r.val < win0_0.xsize (grid0.coords t) 0 := by rw [(xsize_rows (grid0.coords t)).1]; exact r.isLt
  have hq0 : q.val < win0_0.xsize (grid0.coords t) 1 := by rw [(xsize_cols (grid0.coords t)).1]; exact hq
  let j0 : (win0_0.xblock (grid0.coords t)).Idx := fun a => match a with
    | ⟨0, _⟩ => ⟨r.val, hr⟩
    | ⟨1, _⟩ => ⟨q.val, hq0⟩
  have hx : win0_0.xinj (grid0.coords t) j0 = ix2 r q := funext fun a => by match a with | ⟨0, _⟩ => rfl | ⟨1, _⟩ => rfl
  unfold tile0
  rw [← hx, win0_0.fill_xinj]
  show V m c main_v0 (((cfg0.win 0).blk t).view.emb j0) = V m c main_v0 (above r i)
  refine congrArg _ (funext fun a => Fin.ext ?_)
  match a with
  | ⟨0, _⟩ => show win0_0.index t (0 : Fin 2) * 2000 + 1 * r.val = r.val; omega
  | ⟨1, _⟩ => show win0_0.index t (1 : Fin 2) * 640 + 1 * q.val = (i 1).val; omega
/-- The second input's likewise. -/
theorem tile1_at (c : Dev nD) (t : Fin cfg0.N) (r : Fin 2000) (q : Fin 640) (hq : q.val < win0_2.xsize (grid0.coords t) 1)
    (i : S1x30000.Idx) (hi : (i 1).val = win0_2.index t (1 : Fin 2) * 640 + q.val) :
    tile1 m c t (ix2 r q) = V m c main_v1 (above r i) := by
  obtain ⟨e0, e1, e2, e3, e4, e5, e6, e7, e8, e9, e10⟩ := idx_facts t
  have hr : r.val < win0_1.xsize (grid0.coords t) 0 := by rw [(xsize_rows (grid0.coords t)).2]; exact r.isLt
  have hq0 : q.val < win0_1.xsize (grid0.coords t) 1 := by rw [(xsize_cols (grid0.coords t)).2.1]; exact hq
  let j0 : (win0_1.xblock (grid0.coords t)).Idx := fun a => match a with
    | ⟨0, _⟩ => ⟨r.val, hr⟩
    | ⟨1, _⟩ => ⟨q.val, hq0⟩
  have hx : win0_1.xinj (grid0.coords t) j0 = ix2 r q := funext fun a => by match a with | ⟨0, _⟩ => rfl | ⟨1, _⟩ => rfl
  unfold tile1
  rw [← hx, win0_1.fill_xinj]
  show V m c main_v1 (((cfg0.win 1).blk t).view.emb j0) = V m c main_v1 (above r i)
  refine congrArg _ (funext fun a => Fin.ext ?_)
  match a with
  | ⟨0, _⟩ => show win0_1.index t (0 : Fin 2) * 2000 + 1 * r.val = r.val; omega
  | ⟨1, _⟩ => show win0_1.index t (1 : Fin 2) * 640 + 1 * q.val = (i 1).val; omega

/-- WHAT POINT `t` WRITES BACK to the first output is block `t` of the column sums of the input arrays as the region finds them. -/
theorem flushed2_eq (c : Dev nD) (t : Fin cfg0.N) :
    (dats m 0 c).flushed 2 t = ((cfg0.win 2).blk t).view.read (Elt Ideal) (colSq (V m c main_v0) (V m c main_v1)) := by
  show (cfg0.win 2).cut (grid0.coords t) ((dats m 0 c).after 2 t) = _
  rw [after_2]
  funext j
  obtain ⟨p, q, hpq, hq, hqj⟩ := xinj2_col (grid0.coords t) j
  show outSq (F := Ideal) (tile0 m c t) (tile1 m c t) (win0_2.xinj (grid0.coords t) j)
    = colSq (V m c main_v0) (V m c main_v1) (((cfg0.win 2).blk t).view.emb j)
  rw [hpq, outSq_apply]
  unfold colSq
  have hi : ((((cfg0.win 2).blk t).view.emb j) 1).val = win0_2.index t (1 : Fin 2) * 640 + q.val := by
    show win0_2.index t (1 : Fin 2) * 640 + 1 * (j 1).val = _; omega
  refine Finset.sum_congr rfl fun r _ => ?_
  rw [tile0_at m c t r q hq _ hi, tile1_at m c t r q hq _ hi]
/-- And to the second, block `t` of the constant count. -/
theorem flushed3_eq (c : Dev nD) (t : Fin cfg0.N) :
    (dats m 0 c).flushed 3 t = ((cfg0.win 3).blk t).view.read (Elt Ideal) colCnt := by
  show (cfg0.win 3).cut (grid0.coords t) ((dats m 0 c).after 3 t) = _
  rw [after_3]
  funext j
  obtain ⟨p, q, hpq, hq, hqj⟩ := xinj3_col (grid0.coords t) j
  show outCnt (F := Ideal) (tile0 m c t) (tile1 m c t) (win0_3.xinj (grid0.coords t) j) = ((2000 : ℝ) : EReal)
  rw [hpq, outCnt_apply]

/-- An index of the first output array is in point `t`'s block iff each coordinate is among those the write-back moves. -/
theorem mem_blk2 (t : Fin cfg0.N) (i : S1x30000.Idx) :
    i ∈ ((cfg0.win 2).blk t).view.set ↔ ∀ a : Fin 2, win0_2.index t a * S1x640.size a ≤ (i a).val
      ∧ (i a).val < win0_2.index t a * S1x640.size a + win0_2.xsize (grid0.coords t) a := by
  show i ∈ ((View.whole main_v2_0).slice (win0_2.rect t)).set ↔ _
  rw [View.set_slice_whole, Rect.mem_set_unit]
  exact Iff.rfl
theorem mem_blk3 (t : Fin cfg0.N) (i : S1x30000.Idx) :
    i ∈ ((cfg0.win 3).blk t).view.set ↔ ∀ a : Fin 2, win0_3.index t a * S1x640.size a ≤ (i a).val
      ∧ (i a).val < win0_3.index t a * S1x640.size a + win0_3.xsize (grid0.coords t) a := by
  show i ∈ ((View.whole main_v2_1).slice (win0_3.rect t)).set ↔ _
  rw [View.set_slice_whole, Rect.mem_set_unit]
  exact Iff.rfl

/-- Every column is in the block of the point `column / 640`. -/
theorem cover2 (i : S1x30000.Idx) : ∃ t : Fin cfg0.N, (cfg0.win 2).flush t = true ∧ i ∈ ((cfg0.win 2).blk t).view.set := by
  have h0 : (i 0).val < 1 := (i 0).isLt
  have h1 : (i 1).val < 30000 := (i 1).isLt
  let t : Fin cfg0.N := ⟨(i 1).val / 640, by show (i 1).val / 640 < 47; omega⟩
  obtain ⟨e0, e1, e2, e3, e4, e5, e6, e7, e8, e9, e10⟩ := idx_facts t
  have ht : t.val = (i 1).val / 640 := rfl
  refine ⟨t, flush0_2 t, ?_⟩
  rw [mem_blk2]
  intro a
  match a with
  | ⟨0, _⟩ => show win0_2.index t (0 : Fin 2) * 1 ≤ (i 0).val ∧ (i 0).val < win0_2.index t (0 : Fin 2) * 1 + win0_2.xsize (grid0.coords t) (0 : Fin 2); omega
  | ⟨1, _⟩ => show win0_2.index t (1 : Fin 2) * 640 ≤ (i 1).val ∧ (i 1).val < win0_2.index t (1 : Fin 2) * 640 + win0_2.xsize (grid0.coords t) (1 : Fin 2); omega
theorem cover3 (i : S1x30000.Idx) : ∃ t : Fin cfg0.N, (cfg0.win 3).flush t = true ∧ i ∈ ((cfg0.win 3).blk t).view.set := by
  have h0 : (i 0).val < 1 := (i 0).isLt
  have h1 : (i 1).val < 30000 := (i 1).isLt
  let t : Fin cfg0.N := ⟨(i 1).val / 640, by show (i 1).val / 640 < 47; omega⟩
  obtain ⟨e0, e1, e2, e3, e4, e5, e6, e7, e8, e9, e10⟩ := idx_facts t
  have ht : t.val = (i 1).val / 640 := rfl
  have hc : win0_3.xsize (grid0.coords t) (1 : Fin 2) = win0_2.xsize (grid0.coords t) (1 : Fin 2) := (xsize_cols (grid0.coords t)).2.2
  refine ⟨t, flush0_3 t, ?_⟩
  rw [mem_blk3]
  intro a
  match a with
  | ⟨0, _⟩ => show win0_3.index t (0 : Fin 2) * 1 ≤ (i 0).val ∧ (i 0).val < win0_3.index t (0 : Fin 2) * 1 + win0_3.xsize (grid0.coords t) (0 : Fin 2); omega
  | ⟨1, _⟩ => show win0_3.index t (1 : Fin 2) * 640 ≤ (i 1).val ∧ (i 1).val < win0_3.index t (1 : Fin 2) * 640 + win0_3.xsize (grid0.coords t) (1 : Fin 2); omega

/-- THE OUTPUT ARRAYS after the region: the column sums of the squared differences, and the row count. -/
theorem final2 (c : Dev nD) : (dats m 0 c).arrAt 2 cfg0.N = colSq (V m c main_v0) (V m c main_v1) :=
  (dats m 0 c).arrAt_eq_of_cover 2 _ (fun t _ => flushed2_eq m c t) cover2
theorem final3 (c : Dev nD) : (dats m 0 c).arrAt 3 cfg0.N = colCnt :=
  (dats m 0 c).arrAt_eq_of_cover 3 _ (fun t _ => flushed3_eq m c t) cover3

end Cert.KernelIdeal.ValueRun

end
-- ==== Proof.Spec.lean ====
/-
  The common value of the two programs, and the array identities that bring each to it. Both end as

      ( Σ_k ( 0 + Σ_s ( sums(s,k) / 2000 ) ) / 10000 ) / 3      (each sum from the zero the program spells)

  of the [10000, 3] array `sums` of column sums of squared differences: the mask `not (d ≠ d)` is true of every extended
  real, so every count is the number of summands — 2000 rows, then 10000 series — whether a program counts in integers
  and converts once or converts each bit and sums the numbers, and every `max(count, 1)` is the count and every
  `count > 0` true.
-/
import Idealize.ShloMosaic.PureOps.Ideal.Laws
import Idealize.ShloMosaic.Lib.ValueIdx
import Idealize.ShloMosaic.Lib.IdealHost
import Idealize.ShloMosaic.Lib.IndicatorCount
import Idealize.ShloMosaic.Lib.KernelVsHost
import proofs.«113113_j7301444403962_2_alg».proof.Proof.LibIndicatorSum

noncomputable section

open scoped BigOperators

namespace Cert.Spec

open Idealize.ShloMosaic Idealize.ShloMosaic.ValueIdx

abbrev T2 : Shape := ⟨2, ![10000, 3]⟩
abbrev T1 : Shape := ⟨1, ![3]⟩
abbrev T0 : Shape := ⟨0, ![]⟩

/-- The zero the programs start their host sums from. -/
abbrev zero0 : FVec Ideal T0 .f32 := constant (F := Ideal) T0 .f32 0x00000000#32
/-- The constant array of a real number. -/
abbrev cst (s : Shape) (x : ℝ) : FVec Ideal s .f32 := fun _ => ((x : ℝ) : EReal)

/-- What both programs compute from the [10000, 3] array of column sums. -/
def tailOf (sums : FVec Ideal T2 .f32) : FVec Ideal T0 .f32 :=
  Host.divf
    (Host.reduceAdd (axes := [0]) (t := T0)
      (Host.divf (Host.reduceAdd (axes := [0]) (t := T1) (Host.divf sums (cst T2 2000)) zero0) (cst T1 10000))
      zero0)
    (constant (F := Ideal) T0 .f32 0x40400000#32)

abbrev T3 : Shape := ⟨3, ![2000, 10000, 3]⟩

/-- The [10000, 3] array of the sums over the 2000 time steps of the squared differences of two [2000, 10000, 3] arrays,
    summed as the host sums: from the zero it spells. -/
def sumsOf (a0 a1 : FVec Ideal T3 .f32) : FVec Ideal T2 .f32 :=
  Host.reduceAdd (axes := [0]) (t := T2) (mulf (subf a0 a1) (subf a0 a1)) zero0

/-- THE COMMON VALUE of the two programs, of the two argument arrays. -/
def value (a0 a1 : FVec Ideal T3 .f32) : FVec Ideal T0 .f32 := tailOf (sumsOf a0 a1)

/-- The time-step `r` entry above (series, target) in the sum's operand. -/
theorem lift3 (h : T3.Reduces [0] T2) (sI : Fin 10000) (k : Fin 3) (r : Fin 2000) : h.lift (ix2 sI k) r = ix3 r sI k := by
  funext a; apply Fin.ext
  match a with
  | ⟨0, _⟩ => rfl
  | ⟨1, _⟩ => rfl
  | ⟨2, _⟩ => rfl

/-- One term of the sum over time. -/
theorem sums_term (h : T3.Reduces [0] T2) (a0 a1 : FVec Ideal T3 .f32) (sI : Fin 10000) (k : Fin 3) (r : Fin 2000) :
    mulf (subf a0 a1) (subf a0 a1) (h.lift (ix2 sI k) r)
      = (a0 (ix3 r sI k) - a1 (ix3 r sI k)) * (a0 (ix3 r sI k) - a1 (ix3 r sI k)) := by
  rw [lift3]; rfl

/-- The sums at (series, target): the plain sum over the time steps. -/
theorem sumsOf_apply (a0 a1 : FVec Ideal T3 .f32) (sI : Fin 10000) (k : Fin 3) :
    sumsOf a0 a1 (ix2 sI k)
      = ∑ r : Fin 2000, (a0 (ix3 r sI k) - a1 (ix3 r sI k)) * (a0 (ix3 r sI k) - a1 (ix3 r sI k)) := by
  show Ideal.hostReduceAdd (by decide : T3.ReducesTo [0] T2) (mulf (subf a0 a1) (subf a0 a1)) (Ideal.ofBits .f32 0x00000000#32) (ix2 sI k) = _
  rw [Ideal.hostReduceAdd_single _ (by decide : T3.Reduces [0] T2), Ideal.ofBits_zero_f32, zero_add]
  exact Finset.sum_congr rfl fun r _ => sums_term _ a0 a1 sI k r

/-! ## The mask and the selects -/

/-- No extended real differs from itself: the mask is all ones (spelt as the reference spells it). -/
theorem not_une_self {s : Shape} (d : FVec Ideal s .f32) : noti (cmpf .une d d) = constantI s 1 1#1 := by
  funext i
  show ~~~(Ideal.cmp .une (d i) (d i)) = 1#1
  have h : Ideal.cmp .une (d i) (d i) = 0#1 := by simp [Ideal.cmp]
  rw [h]; rfl

/-- A select on the all-ones mask is its first branch. -/
theorem select_ones {s : Shape} {α : Type} (x y : s.Idx → α) : select (constantI s 1 1#1) x y = x := by
  funext i; exact select_one _ _

/-! ## Counting in integers -/

/-- The host's integer count along one axis of an all-ones mask is the axis's length, as a 32-bit word. -/
theorem hostCount_ones {s t : Shape} {a : Fin s.rank} (h' : s.ReducesTo [a] t) (h : s.Reduces [a] t) (hw : 1 < 32)
    {u : Shape} (hu : 0 < u.numel) :
    Host.reduce IntOp.addi (extui 32 (constantI s 1 1#1) hw) (constantI u 32 0#32) h' hu
      = constantI t 32 (BitVec.ofNat 32 (s.size a)) := by
  funext j
  show Host.reduce IntOp.addi (fun i => ((constantI s 1 1#1 : IVec s 1) i).setWidth 32) (constantI u 32 0#32) h' hu j = _
  rw [Host.reduce_eq_fold]
  show (Finset.univ.filter fun i => h'.drop i = j).fold IntOp.addi (0#32) (fun i => ((fun _ => 1#1 : s.Idx → BitVec 1) i).setWidth 32) = _
  rw [IndicatorCount.fold_addi_setWidth_eq_card, Shape.ReducesTo.drop_eq_drop h' h]
  show BitVec.ofNat 32 _ = BitVec.ofNat 32 _
  congr 1
  rw [Finset.filter_true_of_mem (fun i _ => rfl), Finset.card_eq_sum_ones, h.sum_filter_drop_single (fun _ => 1) j]
  simp

/-! ## The numerals -/

theorem maxsi_2000 : IntOp.maxsi (BitVec.ofNat 32 2000) 1#32 = BitVec.ofNat 32 2000 := by decide
theorem maxsi_10000 : IntOp.maxsi (BitVec.ofNat 32 10000) 1#32 = BitVec.ofNat 32 10000 := by decide
theorem sgt_2000 : IntOp.cmpi .sgt (BitVec.ofNat 32 2000) 0#32 = 1#1 := by decide
theorem sgt_10000 : IntOp.cmpi .sgt (BitVec.ofNat 32 10000) 0#32 = 1#1 := by decide
theorem toInt_2000 : (BitVec.ofNat 32 2000).toInt = 2000 := by decide
theorem toInt_10000 : (BitVec.ofNat 32 10000).toInt = 10000 := by decide

/-- The float 1.0 does not exceed 2000, nor 10000. -/
theorem max_2000_one : max (((2000 : ℝ)) : EReal) (Ideal.ofBits .f32 0x3F800000#32) = ((2000 : ℝ) : EReal) := by
  rw [Ideal.ofBits_one_f32]
  exact max_eq_left (by exact_mod_cast (by norm_num : (1 : ℝ) ≤ 2000))
theorem max_10000_one : max (((10000 : ℝ)) : EReal) (Ideal.ofBits .f32 0x3F800000#32) = ((10000 : ℝ) : EReal) := by
  rw [Ideal.ofBits_one_f32]
  exact max_eq_left (by exact_mod_cast (by norm_num : (1 : ℝ) ≤ 10000))
/-- Both exceed the float 0.0. -/
theorem ogt_2000_zero : Ideal.cmp .ogt (((2000 : ℝ)) : EReal) (Ideal.ofBits .f32 0x00000000#32) = 1#1 := by
  rw [Ideal.ofBits_zero_f32]
  have h : (0 : EReal) < ((2000 : ℝ) : EReal) := by exact_mod_cast (by norm_num : (0 : ℝ) < 2000)
  simp [Ideal.cmp, h]
theorem ogt_10000_zero : Ideal.cmp .ogt (((10000 : ℝ)) : EReal) (Ideal.ofBits .f32 0x00000000#32) = 1#1 := by
  rw [Ideal.ofBits_zero_f32]
  have h : (0 : EReal) < ((10000 : ℝ) : EReal) := by exact_mod_cast (by norm_num : (0 : ℝ) < 10000)
  simp [Ideal.cmp, h]

/-- The host's float sum over the 10000 series of the number 1, from zero, is 10000. -/
theorem hostSum_ones (h' : T2.ReducesTo [0] T1) (hu : 0 < T0.numel) :
    Host.reduceAdd (F := Ideal) (φ := .f32) (cst T2 1) zero0 h' hu = cst T1 10000 := by
  funext j
  show Ideal.hostReduceAdd h' (cst T2 1) (Ideal.ofBits .f32 0x00000000#32) j = _
  rw [Ideal.hostReduceAdd_single h' (by decide), Ideal.ofBits_zero_f32, zero_add]
  show ∑ k : Fin 10000, (((1 : ℝ)) : EReal) = _
  rw [Cert.IndicatorSum.coe_sum]
  simp

end Cert.Spec

end
-- ==== Proof.IdealTail.lean ====
/-
  The host lines after the region, and the idealized program's result. After the region the two [1, 30000] arrays are
  viewed as [10000, 3]; the count array is the constant 2000, so `max(count, 1)` is 2000, `count > 0` holds everywhere, the
  number of valid series is 10000 for each of the three targets, and the result is the common form of Proof/Spec.lean applied
  to the column sums. Those, viewed as [10000, 3], are at (s, k) the sum over the 2000 time steps of the squared differences of
  the two [2000, 10000, 3] arguments at (·, s, k): the wrapper's reshape to [2000, 30000] puts (s, k) at column 3·s + k.
-/
import proofs.«113113_j7301444403962_2_alg».proof.Proof.IdealArrays
import proofs.«113113_j7301444403962_2_alg».proof.Proof.Spec
import Idealize.ShloMosaic.Lib.StableHlo.Run

set_option maxRecDepth 16384

noncomputable section

open scoped BigOperators

namespace Cert.KernelIdeal.ValueRun

open Cert.KernelIdeal Cert.KernelIdeal.Gen Cert.KernelIdeal.Payload
open Idealize.ShloMosaic Idealize.ShloMosaic.TcCoe Idealize.ShloMosaic.ValueIdx Idealize.ShloMosaic.StableHlo
open Idealize.SL Idealize.SL.Sem
open Idealize.ShloMosaic.Pipeline (Dat Cfg Window)

/-! ## The host lines after the region, stage by stage -/

/-- A [1, 30000] array viewed as [10000, 3] (through [30000]). -/
def fold3 (x : FVec Ideal S1x30000 .f32) : FVec Ideal S10000x3 .f32 := fun i =>
  shapeCast S10000x3 (fun i => shapeCast S30000 x shapeCasts_S1x30000_S30000 i) shapeCasts_S30000_S10000x3 i

abbrev zero2 : FVec Ideal S10000x3 .f32 := broadcastInDim S10000x3 ![] bcast_S_S10000x3 (constant (F := Ideal) S_ .f32 0x00000000#32)
abbrev one2 : FVec Ideal S10000x3 .f32 := broadcastInDim S10000x3 ![] bcast_S_S10000x3 (constant (F := Ideal) S_ .f32 0x3F800000#32)
abbrev zero1 : FVec Ideal S3 .f32 := broadcastInDim S3 ![] bcast_S_S3 (constant (F := Ideal) S_ .f32 0x00000000#32)
abbrev one1 : FVec Ideal S3 .f32 := broadcastInDim S3 ![] bcast_S_S3 (constant (F := Ideal) S_ .f32 0x3F800000#32)

/-- Which (series, target) pairs have a valid time step. -/
def validK (cn : FVec Ideal S1x30000 .f32) : IVec S10000x3 1 := cmpf .ogt (fold3 cn) zero2
/-- The masked mean over time. -/
def meanK (s cn : FVec Ideal S1x30000 .f32) : FVec Ideal S10000x3 .f32 := Host.divf (fold3 s) (maximumf (fold3 cn) one2)
/-- Its sum over the valid series, per target. -/
def sumJK (s cn : FVec Ideal S1x30000 .f32) : FVec Ideal S3 .f32 :=
  Host.reduceAdd (select (validK cn) (meanK s cn) zero2) (constant (F := Ideal) S_ .f32 0x00000000#32) reducesTo_S10000x3_S3_d0 h_S_
/-- The number of valid series, per target. -/
def csK (cn : FVec Ideal S1x30000 .f32) : FVec Ideal S3 .f32 :=
  Host.reduceAdd (uitofp .f32 (validK cn)) (constant (F := Ideal) S_ .f32 0x00000000#32) reducesTo_S10000x3_S3_d0 h_S_
/-- The mean over the valid series, per target. -/
def perKK (s cn : FVec Ideal S1x30000 .f32) : FVec Ideal S3 .f32 :=
  select (cmpf .ogt (csK cn) zero1) (Host.divf (sumJK s cn) (maximumf (csK cn) one1)) zero1
/-- The mean over the three targets. -/
def resultK (s cn : FVec Ideal S1x30000 .f32) : FVec Ideal S_ .f32 :=
  Host.divf (Host.reduceAdd (perKK s cn) (constant (F := Ideal) S_ .f32 0x00000000#32) reducesTo_S3_S_d0 h_S_)
    (constant (F := Ideal) S_ .f32 0x40400000#32)

set_option maxRecDepth 65536 in
/-- The host lines after the region compute `resultK` of the two output arrays, whatever else the buffers hold. -/
theorem tail_after (W : Valuation τ sig (Elt Ideal)) :
    StableHlo.after (tail).flatten W (Proc.devRef .tc main_v23)
      = resultK (W (Proc.devRef .tc main_v2_0)) (W (Proc.devRef .tc main_v2_1)) := by
  simp only [tail, hostOps1, hostOps1_1, hostOps1_2, hostOps1_3, hostOps1_4, List.flatten_cons, List.flatten_nil, List.append_nil,
    List.cons_append, List.nil_append]
  after_results_simp
  simp only [cast_eq, id]
  rfl

/-! ## With the count array constant -/

/-- A constant array viewed as [10000, 3] is constant. -/
theorem fold3_const (x : ℝ) : fold3 (fun _ => ((x : ℝ) : EReal)) = Spec.cst S10000x3 x := rfl

theorem validK_const : validK colCnt = constantI S10000x3 1 1#1 := by
  funext i; exact Spec.ogt_2000_zero
theorem max_const2 : maximumf (fold3 colCnt) one2 = Spec.cst S10000x3 2000 := by
  funext i; exact Spec.max_2000_one
theorem uitofp_ones (s : Shape) : uitofp (F := Ideal) .f32 (constantI s 1 1#1) = Spec.cst s 1 := by
  funext i
  show ((((1#1 : BitVec 1).toNat : ℝ)) : EReal) = _
  norm_num
theorem csK_const : csK colCnt = Spec.cst S3 10000 := by
  unfold csK
  rw [validK_const, uitofp_ones]
  exact Spec.hostSum_ones _ _
theorem sumJK_const (s : FVec Ideal S1x30000 .f32) :
    sumJK s colCnt = Host.reduceAdd (Host.divf (fold3 s) (Spec.cst S10000x3 2000)) (constant (F := Ideal) S_ .f32 0x00000000#32)
      reducesTo_S10000x3_S3_d0 h_S_ := by
  unfold sumJK meanK
  rw [validK_const, Spec.select_ones, max_const2]
theorem perKK_const (s : FVec Ideal S1x30000 .f32) :
    perKK s colCnt = Host.divf (sumJK s colCnt) (Spec.cst S3 10000) := by
  unfold perKK
  rw [csK_const]
  have h1 : cmpf .ogt (Spec.cst S3 10000) zero1 = constantI S3 1 1#1 := by funext i; exact Spec.ogt_10000_zero
  have h2 : maximumf (Spec.cst S3 10000) one1 = Spec.cst S3 10000 := by funext i; exact Spec.max_10000_one
  rw [h1, Spec.select_ones, h2]

/-- THE RESULT from the two output arrays: the common form, of the column sums viewed as [10000, 3]. -/
theorem resultK_const (s : FVec Ideal S1x30000 .f32) : resultK s colCnt = Spec.tailOf (fold3 s) := by
  unfold resultK
  rw [perKK_const, sumJK_const]
  rfl

end Cert.KernelIdeal.ValueRun

end
-- ==== Proof.IdealResult.lean ====
/-
  The idealized program's run, read: its result is the common value of Proof/Spec.lean of the two argument arrays, and the
  arguments end unchanged. The input arrays the region finds are the wrapper's reshapes of the arguments to [2000, 30000]
  (column 3·s + k holds series s, target k), so the column sums the region leaves, viewed as [10000, 3], are the sums over the
  time steps at (s, k).
-/
import proofs.«113113_j7301444403962_2_alg».proof.Proof.IdealTail

set_option maxRecDepth 16384

noncomputable section

open scoped BigOperators

namespace Cert.KernelIdeal.ValueRun

open Cert.KernelIdeal Cert.KernelIdeal.Gen Cert.KernelIdeal.Payload
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- A [2000, 10000, 3] array viewed as [2000, 30000]. -/
def flat (a : FVec Ideal S2000x10000x3 .f32) : FVec Ideal S2000x30000 .f32 := fun i =>
  shapeCast S2000x30000 a shapeCasts_S2000x10000x3_S2000x30000 i

/-- The region finds the first input array at the first argument's reshape, -/
theorem V_main_v0 (c : Dev nD) : (V m c main_v0 : S2000x30000.Idx → EReal) = flat (m ((c.tc : Thread nD τ).loc main_arg0)) := by
  dsimp only [V, V0]
  show StableHlo.after hostOps0 (fun b => m (c, b)) _ = _
  after_results_simp
  rfl
/-- and the second at the second's. -/
theorem V_main_v1 (c : Dev nD) : (V m c main_v1 : S2000x30000.Idx → EReal) = flat (m ((c.tc : Thread nD τ).loc main_arg1)) := by
  dsimp only [V, V0]
  show StableHlo.after hostOps0 (fun b => m (c, b)) _ = _
  after_results_simp
  rfl

/-- The reshape at row `r` and column 3·s + k is the argument at (r, s, k). -/
theorem flat_apply (a : FVec Ideal S2000x10000x3 .f32) (r : Fin 2000) (sI : Fin 10000) (k : Fin 3) (J : Fin 30000)
    (hJ : J.val = sI.val * 3 + k.val) : flat a (ix2 r J) = a (ix3 r sI k) := by
  unfold flat
  refine shapeCast_apply a shapeCasts_S2000x10000x3_S2000x30000 (ix2 r J) (ix3 r sI k) ?_
  rw [Shape.rowMajor_val_three, Shape.rowMajor_val_two]
  show (r.val * 10000 + sI.val) * 3 + k.val = r.val * 30000 + J.val
  omega

/-- The [10000, 3] view of a [1, 30000] array at (s, k) is the array at column 3·s + k. -/
theorem fold3_apply (x : FVec Ideal S1x30000 .f32) (sI : Fin 10000) (k : Fin 3) (J : Fin 30000)
    (hJ : J.val = sI.val * 3 + k.val) : fold3 x (ix2 sI k) = x (ix2 (0 : Fin 1) J) := by
  unfold fold3
  refine (shapeCast_apply _ shapeCasts_S30000_S10000x3 (ix2 sI k) (ix1 J) ?_).trans ?_
  · rw [Shape.rowMajor_val_one, Shape.rowMajor_val_two]
    show J.val = sI.val * 3 + k.val
    exact hJ
  · refine shapeCast_apply x shapeCasts_S1x30000_S30000 (ix1 J) (ix2 (0 : Fin 1) J) ?_
    rw [Shape.rowMajor_val_one, Shape.rowMajor_val_two]
    show 0 * 30000 + J.val = J.val
    omega

/-- Row `r` above column `J` of the outputs is (r, J) of the inputs. -/
theorem above_eq (r : Fin 2000) (J : Fin 30000) : above r (ix2 (0 : Fin 1) J) = ix2 r J := by
  funext a
  match a with
  | ⟨0, _⟩ => rfl
  | ⟨1, _⟩ => rfl

/-- THE COLUMN SUMS, viewed as [10000, 3], are the sums over time of the squared differences of the arguments. -/
theorem fold3_colSq (a0 a1 : FVec Ideal S2000x10000x3 .f32) : fold3 (colSq (flat a0) (flat a1)) = Spec.sumsOf a0 a1 := by
  funext i
  obtain ⟨sI, k, rfl⟩ : ∃ (sI : Fin 10000) (k : Fin 3), i = ix2 sI k := ⟨i 0, i 1, eq_ix2 i⟩
  have hlt : sI.val * 3 + k.val < 30000 := by have := sI.isLt; have := k.isLt; omega
  rw [fold3_apply _ sI k ⟨sI.val * 3 + k.val, hlt⟩ rfl, Spec.sumsOf_apply]
  unfold colSq
  refine Finset.sum_congr rfl fun r _ => ?_
  rw [above_eq, flat_apply a0 r sI k _ rfl, flat_apply a1 r sI k _ rfl]

/-- THE RESULT BUFFER after the host lines that follow the region. -/
theorem result_value (c : Dev nD) :
    Pipeline.afterTail₀ cfgs (dats m) 0 (V0 m) tail c main_v23
      = Spec.value (m ((c.tc : Thread nD τ).loc main_arg0)) (m ((c.tc : Thread nD τ).loc main_arg1)) := by
  unfold Pipeline.afterTail₀
  rw [tail_after]
  have h2 : Pipeline.withArrays (cfgs 0).spec c (V0 m c) (fun w => (dats m 0 c).arrAt w (cfgs 0).N) (Proc.devRef .tc main_v2_0)
      = (dats m 0 c).arrAt 2 cfg0.N := Pipeline.withArrays_arr spec0 launch0.win.arr_inj c _ _ 2
  have h3 : Pipeline.withArrays (cfgs 0).spec c (V0 m c) (fun w => (dats m 0 c).arrAt w (cfgs 0).N) (Proc.devRef .tc main_v2_1)
      = (dats m 0 c).arrAt 3 cfg0.N := Pipeline.withArrays_arr spec0 launch0.win.arr_inj c _ _ 3
  rw [h2, h3, final2, final3, resultK_const, V_main_v0, V_main_v1, fold3_colSq]
  rfl

/-- THE RUN, READ: every weakly fair execution ends with the result at the common value of the arguments, and the
    arguments unchanged. -/
theorem run_value : θ_run defs (onTc (τ := τ) (main (F := Ideal))) ⟨m, fun _ => 0, ρ⟩ fun r => ∀ c : Dev nD,
      r.2.mem ((c.tc : Thread nD τ).loc main_v23)
        = Spec.value (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v23 (Pipeline.mem_restRefs_of main_v23 (by decide) (by decide))).trans (result_value m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.ValueRun

end
-- ==== Proof.RefValue.lean ====
/-
  The reference, stage by stage, and its result in the common form. The mask `not (d ≠ d)` is all ones, so the two
  `where`s on the arguments return the arguments and the squared difference is summed unmasked; the integer count of the
  mask over the 2000 time steps is the word 2000, so `max(count, 1)` converts to the number 2000 and `count > 0` holds
  everywhere; the integer count of those over the 10000 series is the word 10000, likewise.
-/
import proofs.«113113_j7301444403962_2_alg».proof.Proof.RefRunP
import proofs.«113113_j7301444403962_2_alg».proof.Proof.Spec

noncomputable section

open scoped BigOperators

namespace Cert.ReferenceIdeal.RefValue

open Cert.ReferenceIdeal Cert.ReferenceIdeal.Gen Cert.ReferenceIdeal.ValueP
open Idealize.ShloMosaic Idealize.ShloMosaic.TcCoe Idealize.ShloMosaic.ValueIdx Idealize.ShloMosaic.StableHlo
open Idealize.SL.Sem

/-- The reference's operations with each operation of an inlined `where` spelt as the plain operation it is (its typed
    references' transports along `rfl` are identities): the same list. -/
abbrev plainOps {F : FTy → Type} [FloatOps F] : List (HloOp τ sig (Elt F)) :=
  [ binary main_arg0 main_arg1 main_v0 (subf : (⟨S2000x10000x3, .f32⟩ : BufTy).Contents (Elt F) → (⟨S2000x10000x3, .f32⟩ : BufTy).Contents (Elt F) → (⟨S2000x10000x3, .f32⟩ : BufTy).Contents (Elt F)),
    binary main_v0 main_v0 main_v1 (cmpf .une : (⟨S2000x10000x3, .f32⟩ : BufTy).Contents (Elt F) → (⟨S2000x10000x3, .f32⟩ : BufTy).Contents (Elt F) → (⟨S2000x10000x3, .i1⟩ : BufTy).Contents (Elt F)),
    unary main_v1 main_v2 (noti : (⟨S2000x10000x3, .i1⟩ : BufTy).Contents (Elt F) → (⟨S2000x10000x3, .i1⟩ : BufTy).Contents (Elt F)),
    nullary main_cst (constant S_ .f32 0x00000000#32),
    unary main_cst main_call0_v0 (id : (⟨S_, .f32⟩ : BufTy).Contents (Elt F) → (⟨S_, .f32⟩ : BufTy).Contents (Elt F)),
    unary main_call0_v0 main_call0_v1 (broadcastInDim S2000x10000x3 ![] bcast_S_S2000x10000x3 : (⟨S_, .f32⟩ : BufTy).Contents (Elt F) → (⟨S2000x10000x3, .f32⟩ : BufTy).Contents (Elt F)),
    ternary main_v2 main_arg1 main_call0_v1 main_v3 (select : (⟨S2000x10000x3, .i1⟩ : BufTy).Contents (Elt F) → (⟨S2000x10000x3, .f32⟩ : BufTy).Contents (Elt F) → (⟨S2000x10000x3, .f32⟩ : BufTy).Contents (Elt F) → (⟨S2000x10000x3, .f32⟩ : BufTy).Contents (Elt F)),
    nullary main_cst_0 (constant S_ .f32 0x00000000#32),
    unary main_cst_0 main_call1_v0 (id : (⟨S_, .f32⟩ : BufTy).Contents (Elt F) → (⟨S_, .f32⟩ : BufTy).Contents (Elt F)),
    unary main_call1_v0 main_call1_v1 (broadcastInDim S2000x10000x3 ![] bcast_S_S2000x10000x3 : (⟨S_, .f32⟩ : BufTy).Contents (Elt F) → (⟨S2000x10000x3, .f32⟩ : BufTy).Contents (Elt F)),
    ternary main_v2 main_arg0 main_call1_v1 main_v4 (select : (⟨S2000x10000x3, .i1⟩ : BufTy).Contents (Elt F) → (⟨S2000x10000x3, .f32⟩ : BufTy).Contents (Elt F) → (⟨S2000x10000x3, .f32⟩ : BufTy).Contents (Elt F) → (⟨S2000x10000x3, .f32⟩ : BufTy).Contents (Elt F)),
    binary main_v4 main_v3 main_v5 (subf : (⟨S2000x10000x3, .f32⟩ : BufTy).Contents (Elt F) → (⟨S2000x10000x3, .f32⟩ : BufTy).Contents (Elt F) → (⟨S2000x10000x3, .f32⟩ : BufTy).Contents (Elt F)),
    binary main_v5 main_v5 main_v6 (mulf : (⟨S2000x10000x3, .f32⟩ : BufTy).Contents (Elt F) → (⟨S2000x10000x3, .f32⟩ : BufTy).Contents (Elt F) → (⟨S2000x10000x3, .f32⟩ : BufTy).Contents (Elt F)),
    nullary main_cst_1 (constant S_ .f32 0x00000000#32),
    unary main_cst_1 main_call2_v0 (id : (⟨S_, .f32⟩ : BufTy).Contents (Elt F) → (⟨S_, .f32⟩ : BufTy).Contents (Elt F)),
    unary main_call2_v0 main_call2_v1 (broadcastInDim S2000x10000x3 ![] bcast_S_S2000x10000x3 : (⟨S_, .f32⟩ : BufTy).Contents (Elt F) → (⟨S2000x10000x3, .f32⟩ : BufTy).Contents (Elt F)),
    ternary main_v2 main_v6 main_call2_v1 main_v7 (select : (⟨S2000x10000x3, .i1⟩ : BufTy).Contents (Elt F) → (⟨S2000x10000x3, .f32⟩ : BufTy).Contents (Elt F) → (⟨S2000x10000x3, .f32⟩ : BufTy).Contents (Elt F) → (⟨S2000x10000x3, .f32⟩ : BufTy).Contents (Elt F)),
    unary main_v2 main_v8 ((extui 32 · natLt_1_32) : (⟨S2000x10000x3, .i1⟩ : BufTy).Contents (Elt F) → (⟨S2000x10000x3, .i32⟩ : BufTy).Contents (Elt F)),
    nullary main_c (constantI S_ 32 0#32),
    binary main_v8 main_c main_v9 ((fun x v => Host.reduce IntOp.addi x v reducesTo_S2000x10000x3_S10000x3_d0 h_S_) : (⟨S2000x10000x3, .i32⟩ : BufTy).Contents (Elt F) → (⟨S_, .i32⟩ : BufTy).Contents (Elt F) → (⟨S10000x3, .i32⟩ : BufTy).Contents (Elt F)),
    nullary main_cst_2 (constant S_ .f32 0x00000000#32),
    binary main_v7 main_cst_2 main_v10 ((fun x v => Host.reduceAdd x v reducesTo_S2000x10000x3_S10000x3_d0 h_S_) : (⟨S2000x10000x3, .f32⟩ : BufTy).Contents (Elt F) → (⟨S_, .f32⟩ : BufTy).Contents (Elt F) → (⟨S10000x3, .f32⟩ : BufTy).Contents (Elt F)),
    nullary main_c_3 (constantI S_ 32 1#32),
    unary main_c_3 main_v11 (broadcastInDim S10000x3 ![] bcast_S_S10000x3 : (⟨S_, .i32⟩ : BufTy).Contents (Elt F) → (⟨S10000x3, .i32⟩ : BufTy).Contents (Elt F)),
    binary main_v9 main_v11 main_v12 (maxsi : (⟨S10000x3, .i32⟩ : BufTy).Contents (Elt F) → (⟨S10000x3, .i32⟩ : BufTy).Contents (Elt F) → (⟨S10000x3, .i32⟩ : BufTy).Contents (Elt F)),
    unary main_v12 main_v13 (sitofp .f32 : (⟨S10000x3, .i32⟩ : BufTy).Contents (Elt F) → (⟨S10000x3, .f32⟩ : BufTy).Contents (Elt F)),
    binary main_v10 main_v13 main_v14 (Host.divf : (⟨S10000x3, .f32⟩ : BufTy).Contents (Elt F) → (⟨S10000x3, .f32⟩ : BufTy).Contents (Elt F) → (⟨S10000x3, .f32⟩ : BufTy).Contents (Elt F)),
    nullary main_c_4 (constantI S_ 32 0#32),
    unary main_c_4 main_v15 (broadcastInDim S10000x3 ![] bcast_S_S10000x3 : (⟨S_, .i32⟩ : BufTy).Contents (Elt F) → (⟨S10000x3, .i32⟩ : BufTy).Contents (Elt F)),
    binary main_v9 main_v15 main_v16 (cmpi .sgt : (⟨S10000x3, .i32⟩ : BufTy).Contents (Elt F) → (⟨S10000x3, .i32⟩ : BufTy).Contents (Elt F) → (⟨S10000x3, .i1⟩ : BufTy).Contents (Elt F)),
    nullary main_cst_5 (constant S_ .f32 0x00000000#32),
    unary main_cst_5 main_call3_v0 (id : (⟨S_, .f32⟩ : BufTy).Contents (Elt F) → (⟨S_, .f32⟩ : BufTy).Contents (Elt F)),
    unary main_call3_v0 main_call3_v1 (broadcastInDim S10000x3 ![] bcast_S_S10000x3 : (⟨S_, .f32⟩ : BufTy).Contents (Elt F) → (⟨S10000x3, .f32⟩ : BufTy).Contents (Elt F)),
    ternary main_v16 main_v14 main_call3_v1 main_v17 (select : (⟨S10000x3, .i1⟩ : BufTy).Contents (Elt F) → (⟨S10000x3, .f32⟩ : BufTy).Contents (Elt F) → (⟨S10000x3, .f32⟩ : BufTy).Contents (Elt F) → (⟨S10000x3, .f32⟩ : BufTy).Contents (Elt F)),
    nullary main_cst_6 (constant S_ .f32 0x00000000#32),
    binary main_v17 main_cst_6 main_v18 ((fun x v => Host.reduceAdd x v reducesTo_S10000x3_S3_d0 h_S_) : (⟨S10000x3, .f32⟩ : BufTy).Contents (Elt F) → (⟨S_, .f32⟩ : BufTy).Contents (Elt F) → (⟨S3, .f32⟩ : BufTy).Contents (Elt F)),
    unary main_v16 main_v19 ((extui 32 · natLt_1_32) : (⟨S10000x3, .i1⟩ : BufTy).Contents (Elt F) → (⟨S10000x3, .i32⟩ : BufTy).Contents (Elt F)),
    nullary main_c_7 (constantI S_ 32 0#32),
    binary main_v19 main_c_7 main_v20 ((fun x v => Host.reduce IntOp.addi x v reducesTo_S10000x3_S3_d0 h_S_) : (⟨S10000x3, .i32⟩ : BufTy).Contents (Elt F) → (⟨S_, .i32⟩ : BufTy).Contents (Elt F) → (⟨S3, .i32⟩ : BufTy).Contents (Elt F)),
    nullary main_c_8 (constantI S_ 32 0#32),
    unary main_c_8 main_v21 (broadcastInDim S3 ![] bcast_S_S3 : (⟨S_, .i32⟩ : BufTy).Contents (Elt F) → (⟨S3, .i32⟩ : BufTy).Contents (Elt F)),
    binary main_v20 main_v21 main_v22 (cmpi .sgt : (⟨S3, .i32⟩ : BufTy).Contents (Elt F) → (⟨S3, .i32⟩ : BufTy).Contents (Elt F) → (⟨S3, .i1⟩ : BufTy).Contents (Elt F)),
    nullary main_c_9 (constantI S_ 32 1#32),
    unary main_c_9 main_v23 (broadcastInDim S3 ![] bcast_S_S3 : (⟨S_, .i32⟩ : BufTy).Contents (Elt F) → (⟨S3, .i32⟩ : BufTy).Contents (Elt F)),
    binary main_v20 main_v23 main_v24 (maxsi : (⟨S3, .i32⟩ : BufTy).Contents (Elt F) → (⟨S3, .i32⟩ : BufTy).Contents (Elt F) → (⟨S3, .i32⟩ : BufTy).Contents (Elt F)),
    unary main_v24 main_v25 (sitofp .f32 : (⟨S3, .i32⟩ : BufTy).Contents (Elt F) → (⟨S3, .f32⟩ : BufTy).Contents (Elt F)),
    binary main_v18 main_v25 main_v26 (Host.divf : (⟨S3, .f32⟩ : BufTy).Contents (Elt F) → (⟨S3, .f32⟩ : BufTy).Contents (Elt F) → (⟨S3, .f32⟩ : BufTy).Contents (Elt F)),
    nullary main_cst_10 (constant S_ .f32 0x00000000#32),
    unary main_cst_10 main_call4_v0 (id : (⟨S_, .f32⟩ : BufTy).Contents (Elt F) → (⟨S_, .f32⟩ : BufTy).Contents (Elt F)),
    unary main_call4_v0 main_call4_v1 (broadcastInDim S3 ![] bcast_S_S3 : (⟨S_, .f32⟩ : BufTy).Contents (Elt F) → (⟨S3, .f32⟩ : BufTy).Contents (Elt F)),
    ternary main_v22 main_v26 main_call4_v1 main_v27 (select : (⟨S3, .i1⟩ : BufTy).Contents (Elt F) → (⟨S3, .f32⟩ : BufTy).Contents (Elt F) → (⟨S3, .f32⟩ : BufTy).Contents (Elt F) → (⟨S3, .f32⟩ : BufTy).Contents (Elt F)),
    nullary main_cst_11 (constant S_ .f32 0x00000000#32),
    binary main_v27 main_cst_11 main_v28 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    nullary main_cst_12 (constant S_ .f32 0x40400000#32),
    binary main_v28 main_cst_12 main_v29 (Host.divf : (⟨S_, .f32⟩ : BufTy).Contents (Elt F) → (⟨S_, .f32⟩ : BufTy).Contents (Elt F) → (⟨S_, .f32⟩ : BufTy).Contents (Elt F)) ]

set_option maxRecDepth 65536 in
theorem ops_eq {F : FTy → Type} [FloatOps F] : (ops (F := F)) = plainOps := rfl

variable (a0 a1 : FVec Ideal S2000x10000x3 .f32)

abbrev zero3 : FVec Ideal S2000x10000x3 .f32 := broadcastInDim S2000x10000x3 ![] bcast_S_S2000x10000x3 (constant (F := Ideal) S_ .f32 0x00000000#32)
abbrev zero2 : FVec Ideal S10000x3 .f32 := broadcastInDim S10000x3 ![] bcast_S_S10000x3 (constant (F := Ideal) S_ .f32 0x00000000#32)
abbrev zero1 : FVec Ideal S3 .f32 := broadcastInDim S3 ![] bcast_S_S3 (constant (F := Ideal) S_ .f32 0x00000000#32)

/-- The mask of the entries whose difference is a number. -/
def mask : IVec S2000x10000x3 1 := noti (cmpf .une (subf a0 a1) (subf a0 a1))
/-- The masked squared difference. -/
def sq : FVec Ideal S2000x10000x3 .f32 :=
  select (mask a0 a1)
    (mulf (subf (select (mask a0 a1) a0 zero3) (select (mask a0 a1) a1 zero3))
      (subf (select (mask a0 a1) a0 zero3) (select (mask a0 a1) a1 zero3)))
    zero3
/-- The number of valid time steps, counted in integers. -/
def cnt : IVec S10000x3 32 :=
  Host.reduce IntOp.addi (extui 32 (mask a0 a1) natLt_1_32) (constantI S_ 32 0#32) reducesTo_S2000x10000x3_S10000x3_d0 h_S_
/-- The sums over time. -/
def sums : FVec Ideal S10000x3 .f32 :=
  Host.reduceAdd (sq a0 a1) (constant (F := Ideal) S_ .f32 0x00000000#32) reducesTo_S2000x10000x3_S10000x3_d0 h_S_
/-- The masked mean over time. -/
def mean : FVec Ideal S10000x3 .f32 :=
  Host.divf (sums a0 a1) (sitofp .f32 (maxsi (cnt a0 a1) (broadcastInDim S10000x3 ![] bcast_S_S10000x3 (constantI S_ 32 1#32))))
/-- Which (series, target) pairs have a valid time step. -/
def valid : IVec S10000x3 1 := cmpi .sgt (cnt a0 a1) (broadcastInDim S10000x3 ![] bcast_S_S10000x3 (constantI S_ 32 0#32))
/-- The sum of the means over the valid series. -/
def sumJ : FVec Ideal S3 .f32 :=
  Host.reduceAdd (select (valid a0 a1) (mean a0 a1) zero2) (constant (F := Ideal) S_ .f32 0x00000000#32) reducesTo_S10000x3_S3_d0 h_S_
/-- The number of valid series, counted in integers. -/
def cs : IVec S3 32 :=
  Host.reduce IntOp.addi (extui 32 (valid a0 a1) natLt_1_32) (constantI S_ 32 0#32) reducesTo_S10000x3_S3_d0 h_S_
/-- The mean over the valid series, per target. -/
def perK : FVec Ideal S3 .f32 :=
  select (cmpi .sgt (cs a0 a1) (broadcastInDim S3 ![] bcast_S_S3 (constantI S_ 32 0#32)))
    (Host.divf (sumJ a0 a1) (sitofp .f32 (maxsi (cs a0 a1) (broadcastInDim S3 ![] bcast_S_S3 (constantI S_ 32 1#32)))))
    zero1
/-- The mean over the three targets. -/
def result : FVec Ideal S_ .f32 :=
  Host.divf (Host.reduceAdd (perK a0 a1) (constant (F := Ideal) S_ .f32 0x00000000#32) reducesTo_S3_S_d0 h_S_)
    (constant (F := Ideal) S_ .f32 0x40400000#32)

set_option maxRecDepth 65536 in
/-- The fold of the reference's operations over a launch memory is `result` of its two argument arrays. -/
theorem after_eq (m : (ℓ : Loc nD τ sig) → Buf (Elt Ideal) ℓ) (c : Dev nD) :
    after (ops (F := Ideal)) (launchContents m c) (Proc.devRef .tc main_v29)
      = result (m ((c.tc : Thread nD τ).loc main_arg0)) (m ((c.tc : Thread nD τ).loc main_arg1)) := by
  rw [ops_eq]
  after_results_simp
  rfl

/-- The reference leaves its arguments as launched. -/
theorem kept_arg0 (m : (ℓ : Loc nD τ sig) → Buf (Elt Ideal) ℓ) (c : Dev nD) :
    after (ops (F := Ideal)) (launchContents m c) (Proc.devRef .tc main_arg0) = m ((c.tc : Thread nD τ).loc main_arg0) := by
  rw [ops_eq]
  after_results_simp <;> rfl
theorem kept_arg1 (m : (ℓ : Loc nD τ sig) → Buf (Elt Ideal) ℓ) (c : Dev nD) :
    after (ops (F := Ideal)) (launchContents m c) (Proc.devRef .tc main_arg1) = m ((c.tc : Thread nD τ).loc main_arg1) := by
  rw [ops_eq]
  after_results_simp <;> rfl

/-! ## Stage by stage -/

theorem mask_eq : mask a0 a1 = constantI S2000x10000x3 1 1#1 := Spec.not_une_self _

theorem sq_eq : sq a0 a1 = mulf (subf a0 a1) (subf a0 a1) := by
  unfold sq
  rw [mask_eq]
  simp only [Spec.select_ones]

theorem cnt_eq : cnt a0 a1 = constantI S10000x3 32 (BitVec.ofNat 32 2000) := by
  unfold cnt
  rw [mask_eq]
  exact Spec.hostCount_ones reducesTo_S2000x10000x3_S10000x3_d0 (by decide) natLt_1_32 h_S_

theorem mean_eq : mean a0 a1 = Host.divf (sums a0 a1) (Spec.cst S10000x3 2000) := by
  unfold mean
  rw [cnt_eq]
  have h2 : sitofp (F := Ideal) .f32 (maxsi (constantI S10000x3 32 (BitVec.ofNat 32 2000))
      (broadcastInDim S10000x3 ![] bcast_S_S10000x3 (constantI S_ 32 1#32))) = Spec.cst S10000x3 2000 := by
    funext i
    show ((((IntOp.maxsi (BitVec.ofNat 32 2000) 1#32).toInt : ℝ)) : EReal) = _
    rw [Spec.maxsi_2000, Spec.toInt_2000]
    norm_num
  rw [h2]

theorem valid_eq : valid a0 a1 = constantI S10000x3 1 1#1 := by
  unfold valid
  rw [cnt_eq]
  funext i
  exact Spec.sgt_2000

theorem sumJ_eq : sumJ a0 a1
    = Host.reduceAdd (Host.divf (sums a0 a1) (Spec.cst S10000x3 2000)) (constant (F := Ideal) S_ .f32 0x00000000#32) reducesTo_S10000x3_S3_d0 h_S_ := by
  unfold sumJ
  rw [valid_eq, Spec.select_ones, mean_eq]

theorem cs_eq : cs a0 a1 = constantI S3 32 (BitVec.ofNat 32 10000) := by
  unfold cs
  rw [valid_eq]
  exact Spec.hostCount_ones reducesTo_S10000x3_S3_d0 (by decide) natLt_1_32 h_S_

theorem perK_eq : perK a0 a1 = Host.divf (sumJ a0 a1) (Spec.cst S3 10000) := by
  unfold perK
  rw [cs_eq]
  have h1 : cmpi .sgt (constantI S3 32 (BitVec.ofNat 32 10000)) (broadcastInDim S3 ![] bcast_S_S3 (constantI S_ 32 0#32))
      = constantI S3 1 1#1 := by funext i; exact Spec.sgt_10000
  have h2 : sitofp (F := Ideal) .f32 (maxsi (constantI S3 32 (BitVec.ofNat 32 10000))
      (broadcastInDim S3 ![] bcast_S_S3 (constantI S_ 32 1#32))) = Spec.cst S3 10000 := by
    funext i
    show ((((IntOp.maxsi (BitVec.ofNat 32 10000) 1#32).toInt : ℝ)) : EReal) = _
    rw [Spec.maxsi_10000, Spec.toInt_10000]
    norm_num
  rw [h1, Spec.select_ones, h2]

/-- THE REFERENCE'S RESULT: the common form, of the plain sums over time of the squared differences. -/
theorem result_eq : result a0 a1 = Spec.value a0 a1 := by
  unfold result
  rw [perK_eq, sumJ_eq]
  unfold sums
  rw [sq_eq]
  rfl

end Cert.ReferenceIdeal.RefValue

end
-- ==== Proof.lean ====
/-
  The certificate of a masked mean-squared-error reduction. The kernel walks the [2000, 30000] reshapes of its two
  [2000, 10000, 3] arguments in 47 column blocks of 640 (the last one 560 columns inside the arrays), and for each column
  sums over the 2000 time steps the squared difference under the mask "the difference is a number", and the mask itself;
  the host then divides the sums by max(count, 1) where count > 0, averages over the series that have a count, and over
  the three targets. The reference does the same on the [2000, 10000, 3] arrays, counting in integers.

  At the ideal instance every difference of extended reals equals itself, so the mask is everywhere true on both sides:
  each count over time is 2000, each count over the series 10000, every max(count, 1) is the count and every count > 0
  holds. Both programs then compute  ( Σ_k ( Σ_s ( Σ_t (o − t)² / 2000 ) / 10000 ) ) / 3  with the same association of
  every sum and the same zeros, so no law of the extended reals beyond 0 + x = x is used, and the precondition is not.

  The frames: the kernel's blocks overhang the arrays, so its staging buffers hold unnamed words past the arrays' end; the
  body sums each column separately, so the columns written back never read them (at the ideal instance), and at the
  bit-exact instance nothing is said of the output buffers at all.
-/
import proofs.«113113_j7301444403962_2_alg».proof.Defs
import proofs.«113113_j7301444403962_2_alg».proof.Proof.Gen.Kernel
import proofs.«113113_j7301444403962_2_alg».proof.Proof.Gen.KernelIdeal
import proofs.«113113_j7301444403962_2_alg».proof.Proof.Gen.ReferenceIdeal
import proofs.«113113_j7301444403962_2_alg».proof.Proof.Gen.Pre_finite_inputs
import proofs.«113113_j7301444403962_2_alg».proof.Proof.BitsRun
import proofs.«113113_j7301444403962_2_alg».proof.Proof.IdealResult
import proofs.«113113_j7301444403962_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments unchanged. -/
theorem frame_kernel : Cert.frame_Kernel := fun m ρ _ => Cert.Kernel.FrameRun.frame (F := Bits) m ρ

/-- So does its idealization. -/
theorem frame_ideal : Cert.frame_KernelIdeal := fun m ρ _ => Cert.KernelIdeal.ValueRun.frame m ρ

/-- And the reference: its run, read at the two arguments, which no operation writes. -/
theorem frame_ref : Cert.frame_ReferenceIdeal := fun m ρ _ =>
  (θ_run Cert.ReferenceIdeal.defs _ _).mono
    (fun _ h c => ⟨(h c Cert.ReferenceIdeal.main_arg0).trans (Cert.ReferenceIdeal.RefValue.kept_arg0 m c),
      (h c Cert.ReferenceIdeal.main_arg1).trans (Cert.ReferenceIdeal.RefValue.kept_arg1 m c)⟩)
    (Cert.ReferenceIdeal.ValueP.run_after (F := Ideal) m ρ)

/-- The ideal pass rewrote nothing. -/
theorem preserves : Cert.preserves_Kernel_KernelIdeal := trivial

/-- Both idealized programs end at the common value of the arguments (Proof/Spec.lean). -/
theorem algebraic : Cert.algebraic_KernelIdeal_ReferenceIdeal := by
  intro m ρ m' ρ' _ hagree
  refine ⟨fun c => Cert.Spec.value (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ValueRun.run_value m ρ, ?_⟩
  refine (θ_run Cert.ReferenceIdeal.defs _ _).mono
    (fun _ h c => ⟨?_, (h c Cert.ReferenceIdeal.main_arg0).trans (Cert.ReferenceIdeal.RefValue.kept_arg0 m' c),
      (h c Cert.ReferenceIdeal.main_arg1).trans (Cert.ReferenceIdeal.RefValue.kept_arg1 m' c)⟩)
    (Cert.ReferenceIdeal.ValueP.run_after (F := Ideal) m' ρ')
  rw [h c Cert.ReferenceIdeal.main_v29, Cert.ReferenceIdeal.RefValue.after_eq, Cert.ReferenceIdeal.RefValue.result_eq,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
